-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_arg12 : FVec F S2 .f32) (main_v48 : IVec S_ 1) (main_v49 : FVec F S128x2 .f32) (main_v50 : FVec F S128x2 .f32) : IVec S_ 1 :=
  let main_v51 : IVec S128x2 1 := cmpf .olt main_v49 main_v50
  let main_c_19 : IVec S_ 1 := constantI S_ 1 1#1
  let main_v52 : IVec S_ 1 := (fun x v => Host.reduce IntOp.andi x v reducesTo_S128x2_S_d0_1 h_S_) main_v51 main_c_19
  let main_v53 : IVec S_ 1 := andi main_v48 main_v52
  let main_v54 : FVec F S2 .f32 := Host.absf main_arg12
  let main_cst_20 : FVec F S_ .f32 := constant S_ .f32 0x7F800000#32
  let main_v55 : FVec F S2 .f32 := broadcastInDim S2 ![] bcast_S_S2 main_cst_20
  let main_v56 : IVec S2 1 := cmpf .olt main_v54 main_v55
  let main_c_21 : IVec S_ 1 := constantI S_ 1 1#1
  let main_v57 : IVec S_ 1 := (fun x v => Host.reduce IntOp.andi x v reducesTo_S2_S_d0 h_S_) main_v56 main_c_21
  let main_v58 : IVec S_ 1 := andi main_v53 main_v57
  main_v58

def fn_part2 {F : FTy → Type} [FloatOps F] (main_arg8 : FVec F S256x128 .f32) (main_arg9 : FVec F S256x128 .f32) (main_arg10 : FVec F S128 .f32) (main_arg11 : FVec F S128x2 .f32) (main_arg12 : FVec F S2 .f32) (main_v33 : IVec S_ 1) : IVec S_ 1 :=
  let main_v34 : FVec F S256x128 .f32 := Host.absf main_arg8
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S256x128 .f32 := Host.absf main_arg9
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x2 .f32 := Host.absf main_arg11
  let main_cst_18 : FVec F S_ .f32 := constant S_ .f32 0x7F800000#32
  let main_v50 : FVec F S128x2 .f32 := broadcastInDim S128x2 ![] bcast_S_S128x2 main_cst_18
  fn_part3 (F := F) main_arg12 main_v48 main_v49 main_v50

def fn_part1 {F : FTy → Type} [FloatOps F] (main_arg5 : FVec F S256x256 .f32) (main_arg6 : FVec F S256x256 .f32) (main_arg7 : FVec F S256 .f32) (main_arg8 : FVec F S256x128 .f32) (main_arg9 : FVec F S256x128 .f32) (main_arg10 : FVec F S128 .f32) (main_arg11 : FVec F S128x2 .f32) (main_arg12 : FVec F S2 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S50000x128 .f32) (main_arg1 : IVec S2x600000 32) (main_arg2 : FVec F S128x256 .f32) (main_arg3 : FVec F S128x256 .f32) (main_arg4 : FVec F S256 .f32) (main_arg5 : FVec F S256x256 .f32) (main_arg6 : FVec F S256x256 .f32) (main_arg7 : FVec F S256 .f32) (main_arg8 : FVec F S256x128 .f32) (main_arg9 : FVec F S256x128 .f32) (main_arg10 : FVec F S128 .f32) (main_arg11 : FVec F S128x2 .f32) (main_arg12 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128x256 .f32 := Host.absf main_arg3
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_arg10 main_arg11 main_arg12 main_v13 main_v16
-- ==== Kernel.lean ====
abbrev S50000x128 : Shape := ⟨2, ![50000, 128]⟩
abbrev S2x600000 : Shape := ⟨2, ![2, 600000]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S128x2 : Shape := ⟨2, ![128, 2]⟩
abbrev S2 : Shape := ⟨1, ![2]⟩
abbrev S1x600000 : Shape := ⟨2, ![1, 600000]⟩
abbrev S600000 : Shape := ⟨1, ![600000]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S600000x128 : Shape := ⟨2, ![600000, 128]⟩
abbrev S1x256 : Shape := ⟨2, ![1, 256]⟩
abbrev S50000x256 : Shape := ⟨2, ![50000, 256]⟩
abbrev S5000x128 : Shape := ⟨2, ![5000, 128]⟩
abbrev S5000x1 : Shape := ⟨2, ![5000, 1]⟩
abbrev S5000x256 : Shape := ⟨2, ![5000, 256]⟩
abbrev S600000x256 : Shape := ⟨2, ![600000, 256]⟩
abbrev S1x128 : Shape := ⟨2, ![1, 128]⟩
abbrev S1x2 : Shape := ⟨2, ![1, 2]⟩
abbrev S50000x2 : Shape := ⟨2, ![50000, 2]⟩
abbrev S5000x2 : Shape := ⟨2, ![5000, 2]⟩

abbrev nBuf : Space → Nat
  | .hbm => 76
  | .vmem => 35
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x256, .f32⟩
  | .hbm, ⟨3, _⟩ => ⟨S128x256, .f32⟩
  | .hbm, ⟨4, _⟩ => ⟨S256, .f32⟩
  | .hbm, ⟨5, _⟩ => ⟨S256x256, .f32⟩
  | .hbm, ⟨6, _⟩ => ⟨S256x256, .f32⟩
  | .hbm, ⟨7, _⟩ => ⟨S256, .f32⟩
  | .hbm, ⟨8, _⟩ => ⟨S256x128, .f32⟩
  | .hbm, ⟨9, _⟩ => ⟨S256x128, .f32⟩
  | .hbm, ⟨10, _⟩ => ⟨S128, .f32⟩
  | .hbm, ⟨11, _⟩ => ⟨S128x2, .f32⟩
  | .hbm, ⟨12, _⟩ => ⟨S2, .f32⟩
  | .hbm, ⟨13, _⟩ => ⟨S1x600000, .i32⟩
  | .hbm, ⟨14, _⟩ => ⟨S600000, .i32⟩
  | .hbm, ⟨15, _⟩ => ⟨S1x600000, .i32⟩
  | .hbm, ⟨16, _⟩ => ⟨S600000, .i32⟩
  | .hbm, ⟨17, _⟩ => ⟨S_, .f32⟩
  | .hbm, ⟨18, _⟩ => ⟨S600000, .f32⟩
  | .hbm, ⟨19, _⟩ => ⟨S_, .f32⟩
  | .hbm, ⟨20, _⟩ => ⟨S50000, .f32⟩
  | .hbm, ⟨21, _⟩ => ⟨S600000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S_, .i32⟩
  | .hbm, ⟨31, _⟩ => ⟨S600000, .i32⟩
  | .hbm, ⟨32, _⟩ => ⟨S600000, .i1⟩
  | .hbm, ⟨33, _⟩ => ⟨S_, .i32⟩
  | .hbm, ⟨34, _⟩ => ⟨S600000, .i32⟩
  | .hbm, ⟨35, _⟩ => ⟨S600000, .i32⟩
  | .hbm, ⟨36, _⟩ => ⟨S600000, .i32⟩
  | .hbm, ⟨37, _⟩ => ⟨S600000x1, .i32⟩
  | .hbm, ⟨38, _⟩ => ⟨S600000x128, .f32⟩
  | .hbm, ⟨39, _⟩ => ⟨S_, .f32⟩
  | .hbm, ⟨40, _⟩ => ⟨S50000x128, .f32⟩
  | .hbm, ⟨41, _⟩ => ⟨S600000x1, .i32⟩
  | .hbm, ⟨42, _⟩ => ⟨S50000x128, .f32⟩
  | .hbm, ⟨43, _⟩ => ⟨S1x256, .f32⟩
  | .hbm, ⟨44, _⟩ => ⟨S50000x256, .f32⟩
  | .hbm, ⟨45, _⟩ => ⟨S_, .i32⟩
  | .hbm, ⟨46, _⟩ => ⟨S600000, .i32⟩
  | .hbm, ⟨47, _⟩ => ⟨S600000, .i1⟩
  | .hbm, ⟨48, _⟩ => ⟨S_, .i32⟩
  | .hbm, ⟨49, _⟩ => ⟨S600000, .i32⟩
  | .hbm, ⟨50, _⟩ => ⟨S600000, .i32⟩
  | .hbm, ⟨51, _⟩ => ⟨S600000, .i32⟩
  | .hbm, ⟨52, _⟩ => ⟨S600000x1, .i32⟩
  | .hbm, ⟨53, _⟩ => ⟨S600000x256, .f32⟩
  | .hbm, ⟨54, _⟩ => ⟨S_, .f32⟩
  | .hbm, ⟨55, _⟩ => ⟨S50000x256, .f32⟩
  | .hbm, ⟨56, _⟩ => ⟨S600000x1, .i32⟩
  | .hbm, ⟨57, _⟩ => ⟨S50000x256, .f32⟩
  | .hbm, ⟨58, _⟩ => ⟨S1x256, .f32⟩
  | .hbm, ⟨59, _⟩ => ⟨S50000x256, .f32⟩
  | .hbm, ⟨60, _⟩ => ⟨S_, .i32⟩
  | .hbm, ⟨61, _⟩ => ⟨S600000, .i32⟩
  | .hbm, ⟨62, _⟩ => ⟨S600000, .i1⟩
  | .hbm, ⟨63, _⟩ => ⟨S_, .i32⟩
  | .hbm, ⟨64, _⟩ => ⟨S600000, .i32⟩
  | .hbm, ⟨65, _⟩ => ⟨S600000, .i32⟩
  | .hbm, ⟨66, _⟩ => ⟨S600000, .i32⟩
  | .hbm, ⟨67, _⟩ => ⟨S600000x1, .i32⟩
  | .hbm, ⟨68, _⟩ => ⟨S600000x256, .f32⟩
  | .hbm, ⟨69, _⟩ => ⟨S_, .f32⟩
  | .hbm, ⟨70, _⟩ => ⟨S50000x256, .f32⟩
  | .hbm, ⟨71, _⟩ => ⟨S600000x1, .i32⟩
  | .hbm, ⟨72, _⟩ => ⟨S50000x256, .f32⟩
  | .hbm, ⟨73, _⟩ => ⟨S1x128, .f32⟩
  | .hbm, ⟨74, _⟩ => ⟨S1x2, .f32⟩
  | .hbm, ⟨75, _⟩ => ⟨S50000x2, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x256, .f32⟩
  | .local _ .vmem, ⟨7, _⟩ => ⟨S128x256, .f32⟩
  | .local _ .vmem, ⟨8, _⟩ => ⟨S1x256, .f32⟩
  | .local _ .vmem, ⟨9, _⟩ => ⟨S5000x256, .f32⟩
  | .local _ .vmem, ⟨10, _⟩ => ⟨S5000x256, .f32⟩
  | .local _ .vmem, ⟨11, _⟩ => ⟨S5000x256, .f32⟩
  | .local _ .vmem, ⟨12, _⟩ => ⟨S5000x256, .f32⟩
  | .local _ .vmem, ⟨13, _⟩ => ⟨S5000x256, .f32⟩
  | .local _ .vmem, ⟨14, _⟩ => ⟨S5000x256, .f32⟩
  | .local _ .vmem, ⟨15, _⟩ => ⟨S5000x1, .f32⟩
  | .local _ .vmem, ⟨16, _⟩ => ⟨S5000x1, .f32⟩
  | .local _ .vmem, ⟨17, _⟩ => ⟨S256x256, .f32⟩
  | .local _ .vmem, ⟨18, _⟩ => ⟨S256x256, .f32⟩
  | .local _ .vmem, ⟨19, _⟩ => ⟨S1x256, .f32⟩
  | .local _ .vmem, ⟨20, _⟩ => ⟨S5000x256, .f32⟩
  | .local _ .vmem, ⟨21, _⟩ => ⟨S5000x256, .f32⟩
  | .local _ .vmem, ⟨22, _⟩ => ⟨S5000x256, .f32⟩
  | .local _ .vmem, ⟨23, _⟩ => ⟨S5000x256, .f32⟩
  | .local _ .vmem, ⟨24, _⟩ => ⟨S5000x256, .f32⟩
  | .local _ .vmem, ⟨25, _⟩ => ⟨S5000x256, .f32⟩
  | .local _ .vmem, ⟨26, _⟩ => ⟨S5000x1, .f32⟩
  | .local _ .vmem, ⟨27, _⟩ => ⟨S5000x1, .f32⟩
  | .local _ .vmem, ⟨28, _⟩ => ⟨S256x128, .f32⟩
  | .local _ .vmem, ⟨29, _⟩ => ⟨S256x128, .f32⟩
  | .local _ .vmem, ⟨30, _⟩ => ⟨S1x128, .f32⟩
  | .local _ .vmem, ⟨31, _⟩ => ⟨S128x2, .f32⟩
  | .local _ .vmem, ⟨32, _⟩ => ⟨S1x2, .f32⟩
  | .local _ .vmem, ⟨33, _⟩ => ⟨S5000x2, .f32⟩
  | .local _ .vmem, ⟨34, _⟩ => ⟨S5000x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_c : Ref sig .tc := ⟨.hbm, 30, rfl⟩
abbrev main_v13 : Ref sig .tc := ⟨.hbm, 31, rfl⟩
abbrev main_v14 : Ref sig .tc := ⟨.hbm, 32, rfl⟩
abbrev main_c_3 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c_5 : Ref sig .tc := ⟨.hbm, 45, rfl⟩
abbrev main_v25 : Ref sig .tc := ⟨.hbm, 46, rfl⟩
abbrev main_v26 : Ref sig .tc := ⟨.hbm, 47, rfl⟩
abbrev main_c_6 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_7 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_c_8 : Ref sig .tc := ⟨.hbm, 60, rfl⟩
abbrev main_v37 : Ref sig .tc := ⟨.hbm, 61, rfl⟩
abbrev main_v38 : Ref sig .tc := ⟨.hbm, 62, rfl⟩
abbrev main_c_9 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_10 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg7_0 : Ref sig .tc := ⟨.vmem, 32, rfl⟩
abbrev cc2_stg8_0 : Ref sig .tc := ⟨.vmem, 33, rfl⟩
abbrev cc2_stg8_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem7_0 : DmaSem sig := 32
abbrev cc2_sem8_0 : DmaSem sig := 33
abbrev cc2_sem8_1 : DmaSem sig := 34

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S256x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x2 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x2 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S5000x2 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  shapeCasts_S256_S1x256 : S256.ShapeCasts S1x256
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  bcast_S_S50000x256 : S_.BroadcastsInDim S50000x256 (![] : Fin 0 → Fin S50000x256.rank)
  shapeCasts_S5000x256_S5000x256 : S5000x256.ShapeCasts S5000x256
  broadcasts_S5000x1_S5000x256 : S5000x1.Broadcasts S5000x256
  inb_S256x256_S256x256_0_0 : ∀ a, (![0, 0] : Fin 2 → Nat) a + S256x256.size a ≤ S256x256.size a
  h_S256x256 : 0 < S256x256.numel
  shapeCasts_S128_S1x128 : S128.ShapeCasts S1x128
  shapeCasts_S2_S1x2 : S2.ShapeCasts S1x2
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x2_S128x2_0_0 : ∀ a, (![0, 0] : Fin 2 → Nat) a + S128x2.size a ≤ S128x2.size a
  h_S128x2 : 0 < S128x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x256_S5000x256_1_0_0_1_n_n_wf : DotDims.WF S5000x128 S128x256 S5000x256 [1] [0] [0] [1] [] []
  gather_S50000x256_S600000x1_S600000x256_1_0_n_n_0_1_1256_wf : GatherDims.WF S50000x256 S600000x1 S600000x256 [1] [0] [] [0] [] 1 ![1, 256]
  scatter_S50000x256_S600000x1_S600000x256_1_0_0_1_wf : ScatterDims.WF S50000x256 S600000x1 S600000x256 [1] [0] [0] 1
  dot_S5000x256_S256x256_S5000x256_1_0_0_1_n_n_wf : DotDims.WF S5000x256 S256x256 S5000x256 [1] [0] [0] [1] [] []
  dot_S5000x256_S256x128_S5000x128_1_0_0_1_n_n_wf : DotDims.WF S5000x256 S256x128 S5000x128 [1] [0] [0] [1] [] []
  dot_S5000x128_S128x2_S5000x2_1_0_0_1_n_n_wf : DotDims.WF S5000x128 S128x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x256.size a ≤ S50000x256.size a
  hwx0_6 : ∀ i : grid0.Coords, EltTy.bits .f32 = 32 ∨ (Rect.block (s := S50000x256) S5000x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x256.size a ≤ S50000x256.size a
  hwx1_1 : ∀ i : grid1.Coords, EltTy.bits .f32 = 32 ∨ (Rect.block (s := S50000x256) S5000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x256.size a ≤ S50000x256.size a
  hwx1_6 : ∀ i : grid1.Coords, EltTy.bits .f32 = 32 ∨ (Rect.block (s := S50000x256) S5000x256.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S50000x256.size a
  hwx2_0 : ∀ i : grid2.Coords, EltTy.bits .f32 = 32 ∨ (Rect.block (s := S50000x256) S5000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x256.size a ≤ S50000x256.size a
  hwx2_1 : ∀ i : grid2.Coords, EltTy.bits .f32 = 32 ∨ (Rect.block (s := S50000x256) S5000x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x128.size a ≤ S256x128.size a
  hwx2_3 : ∀ i : grid2.Coords, EltTy.bits .f32 = 32 ∨ (Rect.block (s := S256x128) S256x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x128.size a ≤ S256x128.size a
  hwx2_4 : ∀ i : grid2.Coords, EltTy.bits .f32 = 32 ∨ (Rect.block (s := S256x128) S256x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x2.size a ≤ S128x2.size a
  hwx2_6 : ∀ i : grid2.Coords, EltTy.bits .f32 = 32 ∨ (Rect.block (s := S128x2) S128x2.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x2.size a ≤ S1x2.size a
  hwx2_7 : ∀ i : grid2.Coords, EltTy.bits .f32 = 32 ∨ (Rect.block (s := S1x2) S1x2.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S5000x2.size a ≤ S50000x2.size a
  hwx2_8 : ∀ i : grid2.Coords, EltTy.bits .f32 = 32 ∨ (Rect.block (s := S50000x2) S5000x2.size (cc2_transform_8 i) (hinb2_8 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S50000x256_S600000x1_S600000x256_1_0_n_n_0_1_1256 : GatherDims S50000x256 S600000x1 S600000x256 where
  offsetDims := [1]
  collapsedSliceDims := [0]
  operandBatchingDims := []
  startIndicesBatchingDims := []
  startIndexMap := [0]
  indexVectorDim := 1
  sliceSizes := ![1, 256]
  wf := gather_S50000x256_S600000x1_S600000x256_1_0_n_n_0_1_1256_wf
def scatter_S50000x256_S600000x1_S600000x256_1_0_0_1 : ScatterDims S50000x256 S600000x1 S600000x256 where
  updateWindowDims := [1]
  insertedWindowDims := [0]
  scatterDimsToOperandDims := [0]
  indexVectorDim := 1
  wf := scatter_S50000x256_S600000x1_S600000x256_1_0_0_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def dot_S5000x128_S128x2_S5000x2_1_0_0_1_n_n : DotDims S5000x128 S128x2 S5000x2 where
  lhsContracting := [1]
  rhsContracting := [0]
  lhsNonContracting := [0]
  rhsNonContracting := [1]
  lhsBatch := []
  rhsBatch := []
  wf := dot_S5000x128_S128x2_S5000x2_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S5000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v34) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v36) S5000x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v46) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v36) S5000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S256x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg9) S256x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v47) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg11) S128x2.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v48) S1x2.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v49) S5000x2.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S128x2 : Shape := ⟨2, ![128, 2]⟩
abbrev S2 : Shape := ⟨1, ![2]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S50000x256 : Shape := ⟨2, ![50000, 256]⟩
abbrev S1x256 : Shape := ⟨2, ![1, 256]⟩
abbrev S600000x256 : Shape := ⟨2, ![600000, 256]⟩
abbrev S1x128 : Shape := ⟨2, ![1, 128]⟩
abbrev S50000x2 : Shape := ⟨2, ![50000, 2]⟩
abbrev S1x2 : Shape := ⟨2, ![1, 2]⟩

abbrev nBuf : Space → Nat
  | .hbm => 120
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x256, .f32⟩
  | .hbm, ⟨3, _⟩ => ⟨S128x256, .f32⟩
  | .hbm, ⟨4, _⟩ => ⟨S256, .f32⟩
  | .hbm, ⟨5, _⟩ => ⟨S256x256, .f32⟩
  | .hbm, ⟨6, _⟩ => ⟨S256x256, .f32⟩
  | .hbm, ⟨7, _⟩ => ⟨S256, .f32⟩
  | .hbm, ⟨8, _⟩ => ⟨S256x128, .f32⟩
  | .hbm, ⟨9, _⟩ => ⟨S256x128, .f32⟩
  | .hbm, ⟨10, _⟩ => ⟨S128, .f32⟩
  | .hbm, ⟨11, _⟩ => ⟨S128x2, .f32⟩
  | .hbm, ⟨12, _⟩ => ⟨S2, .f32⟩
  | .hbm, ⟨13, _⟩ => ⟨S1x600000, .i32⟩
  | .hbm, ⟨14, _⟩ => ⟨S600000, .i32⟩
  | .hbm, ⟨15, _⟩ => ⟨S1x600000, .i32⟩
  | .hbm, ⟨16, _⟩ => ⟨S600000, .i32⟩
  | .hbm, ⟨17, _⟩ => ⟨S_, .i32⟩
  | .hbm, ⟨18, _⟩ => ⟨S600000, .i32⟩
  | .hbm, ⟨19, _⟩ => ⟨S600000, .i1⟩
  | .hbm, ⟨20, _⟩ => ⟨S_, .i32⟩
  | .hbm, ⟨21, _⟩ => ⟨S600000, .i32⟩
  | .hbm, ⟨22, _⟩ => ⟨S600000, .i32⟩
  | .hbm, ⟨23, _⟩ => ⟨S600000, .i32⟩
  | .hbm, ⟨24, _⟩ => ⟨S600000x1, .i32⟩
  | .hbm, ⟨25, _⟩ => ⟨S600000x128, .f32⟩
  | .hbm, ⟨26, _⟩ => ⟨S_, .f32⟩
  | .hbm, ⟨27, _⟩ => ⟨S50000x128, .f32⟩
  | .hbm, ⟨28, _⟩ => ⟨S600000x1, .i32⟩
  | .hbm, ⟨29, _⟩ => ⟨S50000x128, .f32⟩
  | .hbm, ⟨30, _⟩ => ⟨S_, .f32⟩
  | .hbm, ⟨31, _⟩ => ⟨S600000, .f32⟩
  | .hbm, ⟨32, _⟩ => ⟨S_, .f32⟩
  | .hbm, ⟨33, _⟩ => ⟨S50000, .f32⟩
  | .hbm, ⟨34, _⟩ => ⟨S600000x1, .i32⟩
  | .hbm, ⟨35, _⟩ => ⟨S50000, .f32⟩
  | .hbm, ⟨36, _⟩ => ⟨S_, .f32⟩
  | .hbm, ⟨37, _⟩ => ⟨S50000, .f32⟩
  | .hbm, ⟨38, _⟩ => ⟨S50000, .f32⟩
  | .hbm, ⟨39, _⟩ => ⟨S50000x1, .f32⟩
  | .hbm, ⟨40, _⟩ => ⟨S50000x128, .f32⟩
  | .hbm, ⟨41, _⟩ => ⟨S50000x128, .f32⟩
  | .hbm, ⟨42, _⟩ => ⟨S50000x256, .f32⟩
  | .hbm, ⟨43, _⟩ => ⟨S50000x256, .f32⟩
  | .hbm, ⟨44, _⟩ => ⟨S50000x256, .f32⟩
  | .hbm, ⟨45, _⟩ => ⟨S1x256, .f32⟩
  | .hbm, ⟨46, _⟩ => ⟨S50000x256, .f32⟩
  | .hbm, ⟨47, _⟩ => ⟨S50000x256, .f32⟩
  | .hbm, ⟨48, _⟩ => ⟨S_, .f32⟩
  | .hbm, ⟨49, _⟩ => ⟨S50000x256, .f32⟩
  | .hbm, ⟨50, _⟩ => ⟨S50000x256, .f32⟩
  | .hbm, ⟨51, _⟩ => ⟨S_, .i32⟩
  | .hbm, ⟨52, _⟩ => ⟨S600000, .i32⟩
  | .hbm, ⟨53, _⟩ => ⟨S600000, .i1⟩
  | .hbm, ⟨54, _⟩ => ⟨S_, .i32⟩
  | .hbm, ⟨55, _⟩ => ⟨S600000, .i32⟩
  | .hbm, ⟨56, _⟩ => ⟨S600000, .i32⟩
  | .hbm, ⟨57, _⟩ => ⟨S600000, .i32⟩
  | .hbm, ⟨58, _⟩ => ⟨S600000x1, .i32⟩
  | .hbm, ⟨59, _⟩ => ⟨S600000x256, .f32⟩
  | .hbm, ⟨60, _⟩ => ⟨S_, .f32⟩
  | .hbm, ⟨61, _⟩ => ⟨S50000x256, .f32⟩
  | .hbm, ⟨62, _⟩ => ⟨S600000x1, .i32⟩
  | .hbm, ⟨63, _⟩ => ⟨S50000x256, .f32⟩
  | .hbm, ⟨64, _⟩ => ⟨S_, .f32⟩
  | .hbm, ⟨65, _⟩ => ⟨S600000, .f32⟩
  | .hbm, ⟨66, _⟩ => ⟨S_, .f32⟩
  | .hbm, ⟨67, _⟩ => ⟨S50000, .f32⟩
  | .hbm, ⟨68, _⟩ => ⟨S600000x1, .i32⟩
  | .hbm, ⟨69, _⟩ => ⟨S50000, .f32⟩
  | .hbm, ⟨70, _⟩ => ⟨S_, .f32⟩
  | .hbm, ⟨71, _⟩ => ⟨S50000, .f32⟩
  | .hbm, ⟨72, _⟩ => ⟨S50000, .f32⟩
  | .hbm, ⟨73, _⟩ => ⟨S50000x1, .f32⟩
  | .hbm, ⟨74, _⟩ => ⟨S50000x256, .f32⟩
  | .hbm, ⟨75, _⟩ => ⟨S50000x256, .f32⟩
  | .hbm, ⟨76, _⟩ => ⟨S50000x256, .f32⟩
  | .hbm, ⟨77, _⟩ => ⟨S50000x256, .f32⟩
  | .hbm, ⟨78, _⟩ => ⟨S50000x256, .f32⟩
  | .hbm, ⟨79, _⟩ => ⟨S1x256, .f32⟩
  | .hbm, ⟨80, _⟩ => ⟨S50000x256, .f32⟩
  | .hbm, ⟨81, _⟩ => ⟨S50000x256, .f32⟩
  | .hbm, ⟨82, _⟩ => ⟨S_, .f32⟩
  | .hbm, ⟨83, _⟩ => ⟨S50000x256, .f32⟩
  | .hbm, ⟨84, _⟩ => ⟨S50000x256, .f32⟩
  | .hbm, ⟨85, _⟩ => ⟨S_, .i32⟩
  | .hbm, ⟨86, _⟩ => ⟨S600000, .i32⟩
  | .hbm, ⟨87, _⟩ => ⟨S600000, .i1⟩
  | .hbm, ⟨88, _⟩ => ⟨S_, .i32⟩
  | .hbm, ⟨89, _⟩ => ⟨S600000, .i32⟩
  | .hbm, ⟨90, _⟩ => ⟨S600000, .i32⟩
  | .hbm, ⟨91, _⟩ => ⟨S600000, .i32⟩
  | .hbm, ⟨92, _⟩ => ⟨S600000x1, .i32⟩
  | .hbm, ⟨93, _⟩ => ⟨S600000x256, .f32⟩
  | .hbm, ⟨94, _⟩ => ⟨S_, .f32⟩
  | .hbm, ⟨95, _⟩ => ⟨S50000x256, .f32⟩
  | .hbm, ⟨96, _⟩ => ⟨S600000x1, .i32⟩
  | .hbm, ⟨97, _⟩ => ⟨S50000x256, .f32⟩
  | .hbm, ⟨98, _⟩ => ⟨S_, .f32⟩
  | .hbm, ⟨99, _⟩ => ⟨S600000, .f32⟩
  | .hbm, ⟨100, _⟩ => ⟨S_, .f32⟩
  | .hbm, ⟨101, _⟩ => ⟨S50000, .f32⟩
  | .hbm, ⟨102, _⟩ => ⟨S600000x1, .i32⟩
  | .hbm, ⟨103, _⟩ => ⟨S50000, .f32⟩
  | .hbm, ⟨104, _⟩ => ⟨S_, .f32⟩
  | .hbm, ⟨105, _⟩ => ⟨S50000, .f32⟩
  | .hbm, ⟨106, _⟩ => ⟨S50000, .f32⟩
  | .hbm, ⟨107, _⟩ => ⟨S50000x1, .f32⟩
  | .hbm, ⟨108, _⟩ => ⟨S50000x256, .f32⟩
  | .hbm, ⟨109, _⟩ => ⟨S50000x256, .f32⟩
  | .hbm, ⟨110, _⟩ => ⟨S50000x128, .f32⟩
  | .hbm, ⟨111, _⟩ => ⟨S50000x128, .f32⟩
  | .hbm, ⟨112, _⟩ => ⟨S50000x128, .f32⟩
  | .hbm, ⟨113, _⟩ => ⟨S1x128, .f32⟩
  | .hbm, ⟨114, _⟩ => ⟨S50000x128, .f32⟩
  | .hbm, ⟨115, _⟩ => ⟨S50000x128, .f32⟩
  | .hbm, ⟨116, _⟩ => ⟨S50000x2, .f32⟩
  | .hbm, ⟨117, _⟩ => ⟨S1x2, .f32⟩
  | .hbm, ⟨118, _⟩ => ⟨S50000x2, .f32⟩
  | .hbm, ⟨119, _⟩ => ⟨S50000x2, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_call0_cst : Ref sig .tc := ⟨.hbm, 48, rfl⟩
abbrev main_call0_v0 : Ref sig .tc := ⟨.hbm, 49, rfl⟩
abbrev main_v29 : Ref sig .tc := ⟨.hbm, 50, rfl⟩
abbrev main_c_4 : Ref sig .tc := ⟨.hbm, 51, rfl⟩
abbrev main_v30 : Ref sig .tc := ⟨.hbm, 52, rfl⟩
abbrev main_v31 : Ref sig .tc := ⟨.hbm, 53, rfl⟩
abbrev main_c_5 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_6 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_7 : Ref sig .tc := ⟨.hbm, 64, rfl⟩
abbrev main_v40 : Ref sig .tc := ⟨.hbm, 65, rfl⟩
abbrev main_cst_8 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_9 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_call1_cst : Ref sig .tc := ⟨.hbm, 82, rfl⟩
abbrev main_call1_v0 : Ref sig .tc := ⟨.hbm, 83, rfl⟩
abbrev main_v55 : Ref sig .tc := ⟨.hbm, 84, rfl⟩
abbrev main_c_10 : Ref sig .tc := ⟨.hbm, 85, rfl⟩
abbrev main_v56 : Ref sig .tc := ⟨.hbm, 86, rfl⟩
abbrev main_v57 : Ref sig .tc := ⟨.hbm, 87, rfl⟩
abbrev main_c_11 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_cst_12 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_cst_13 : Ref sig .tc := ⟨.hbm, 98, rfl⟩
abbrev main_v66 : Ref sig .tc := ⟨.hbm, 99, rfl⟩
abbrev main_cst_14 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_cst_15 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S50000x128_S128x256_S50000x256_1_0_0_1_n_n_wf : DotDims.WF S50000x128 S128x256 S50000x256 [1] [0] [0] [1] [] []
  gather_S50000x256_S600000x1_S600000x256_1_0_n_n_0_1_1256_wf : GatherDims.WF S50000x256 S600000x1 S600000x256 [1] [0] [] [0] [] 1 ![1, 256]
  scatter_S50000x256_S600000x1_S600000x256_1_0_0_1_wf : ScatterDims.WF S50000x256 S600000x1 S600000x256 [1] [0] [0] 1
  dot_S50000x256_S256x256_S50000x256_1_0_0_1_n_n_wf : DotDims.WF S50000x256 S256x256 S50000x256 [1] [0] [0] [1] [] []
  dot_S50000x256_S256x128_S50000x128_1_0_0_1_n_n_wf : DotDims.WF S50000x256 S256x128 S50000x128 [1] [0] [0] [1] [] []
  dot_S50000x128_S128x2_S50000x2_1_0_0_1_n_n_wf : DotDims.WF S50000x128 S128x2 S50000x2 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S600000x1_S600000x256_1_0_n_n_0_1_1256 : GatherDims S50000x256 S600000x1 S600000x256 where
  offsetDims := [1]
  collapsedSliceDims := [0]
  operandBatchingDims := []
  startIndicesBatchingDims := []
  startIndexMap := [0]
  indexVectorDim := 1
  sliceSizes := ![1, 256]
  wf := gather_S50000x256_S600000x1_S600000x256_1_0_n_n_0_1_1256_wf
def scatter_S50000x256_S600000x1_S600000x256_1_0_0_1 : ScatterDims S50000x256 S600000x1 S600000x256 where
  updateWindowDims := [1]
  insertedWindowDims := [0]
  scatterDimsToOperandDims := [0]
  indexVectorDim := 1
  wf := scatter_S50000x256_S600000x1_S600000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x2_S50000x2_1_0_0_1_n_n : DotDims S50000x128 S128x2 S50000x2 where
  lhsContracting := [1]
  rhsContracting := [0]
  lhsNonContracting := [0]
  rhsNonContracting := [1]
  lhsBatch := []
  rhsBatch := []
  wf := dot_S50000x128_S128x2_S50000x2_1_0_0_1_n_n_wf

class Facts : Prop extends Facts₀ where

variable [Facts]
-- ==== Proof.KRun.lean ====
/-
  The idealized program's run, read at its end.  The program is six stretches in order — host operations, region 0,
  host operations, region 1, host operations, region 2 — and the contents of every buffer at each boundary are a fold
  from the launch memory: a host stretch applies its operations, a region leaves each of its arrays at what its
  write-backs left and every other buffer as it found it.  Every weakly fair execution terminates with every buffer
  that outlives the regions at the last boundary's contents; in particular the result array holds what region 2's
  write-backs left, and no argument array was written.
-/
import proofs.«112846_j69286412419426_2_alg».proof.Proof.PKernelIdealFrame

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A final memory in which core c's buffers that outlive the regions hold the last boundary's contents. -/
def EndsAt (c : Dev nD) (s : MemSt nD τ sig (Elt F)) : Prop :=
  ∀ b ∈ Pipeline.ucRefs τ sig, s.mem (((c : Thread nD τ)).1, b) = W6 m ρ c b

set_option backward.isDefEq.respectTransparency.types false in
/-- Every weakly fair execution of the program terminates, nothing faulting, in a memory that ends at the last
    boundary's contents on every core: the six segments run in order from the launch, and the last thread state is read
    against the final state. -/
theorem run_ends : θ_run defs (onTc (τ := τ) (main (F := F))) ⟨m, fun _ => 0, ρ⟩ (fun r => ∀ c : Dev nD, EndsAt m ρ c r.2) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      · iapply (show (BI.emp : sProp 𝕄) ⊢ bigSep Finset.univ (fun _ : Dev nD => (BI.emp : sProp 𝕄)) from by
          rw [BI.bigSep_emp_const])
        iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b))
          = StableHlo.held (c : Thread nD τ) (Pipeline.ucRefs τ sig) (W0 m ρ c) from Pipeline.unscopedBufs_held c (W0 m ρ c)]
      iintro ⟨⟨Hbufs, -, Howes, -, Hprng, -⟩, -⟩
      imodintro
      isplitl [Hbufs]
      · iexact Hbufs
      isplitl [Hprng]
      · iexists _; iexact Hprng
      iexists ∅; iexact Howes)
    (QY := fun c s => EndsAt m ρ c s)
    (hfin := fun c s' => by
      iintro ⟨⟨Hbufs, -⟩, HSI⟩
      unfold StableHlo.held EndsAt
      imodintro
      iapply (pointsTo_read_all (Pipeline.ucRefs τ sig) (fun b => (((c : Thread nD τ)).1, b)) (W6 m ρ c) s')
      isplitl [Hbufs] <;> iassumption)
    (hQ := fun s h => h)

/-- The run with its result named: the result array ends at the last boundary's contents of its buffer, and every
    argument array as launched (no host operation and no region writes one). -/
theorem run_named : θ_run defs (onTc (τ := τ) (main (F := F))) ⟨m, fun _ => 0, ρ⟩ (fun r => ∀ c : Dev nD,
      r.2.mem ((c.tc : Thread nD τ).loc main_v49) = W6 m ρ c (Proc.devRef .tc main_v49)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨h c _ (mem_uc main_v49 (by decide)),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c),
     (h c _ (mem_uc main_arg9 (by decide))).trans (W6_main_arg9 m ρ c),
     (h c _ (mem_uc main_arg10 (by decide))).trans (W6_main_arg10 m ρ c),
     (h c _ (mem_uc main_arg11 (by decide))).trans (W6_main_arg11 m ρ c),
     (h c _ (mem_uc main_arg12 (by decide))).trans (W6_main_arg12 m ρ c)⟩)
    (run_ends m ρ)

end Cert.KernelIdeal.Hand

end
-- ==== Proof.LibLayout.lean ====
/-
  Three small readings of layout operations at an index given by coordinates, for the column forms a row reduction
  with kept dimensions produces: a vector of `a` entries cast to one column `[a, 1]`, a column broadcast along
  the rows `[a, 1] → [a, b]`, and the index a row sum inserts on the reduced axis.
-/
import Idealize.ShloMosaic.Lib.ValueLayout
import Idealize.ShloMosaic.PureOps.Ideal.Laws

namespace Cert.Attn.Layout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a sum along the rows inserts: row `p` with column `k` put back is `(p, k)`. -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A sum along the rows of an `[a, b]` array of extended reals, read at row `p`: the sum of the row's entries. -/
theorem rowSum_apply {a b : ℕ} (src : FVec Ideal ⟨2, ![a, b]⟩ .f32) (h : (⟨2, ![a, b]⟩ : Shape).Reduces [1] (⟨1, ![a]⟩ : Shape))
    (hφ : FKind.Formats .f32) (hacc : (0x00000000#32 : BitVec 32) = FKind.add.neutral .f32 hφ) (p : Fin a) :
    multiReduction .add [1] (⟨1, ![a]⟩ : Shape) src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_row h p k)

end Cert.Attn.Layout
-- ==== Proof.LibMatmulIx.lean ====
/-
  A matrix product of an `[a, K]` array with a `[K, b]` array read at the entry `(p, q)`, at the ideal values:
  the sum over `k` of the left operand's `(p, k)` entry times the right operand's `(k, q)` entry — for a kernel's
  product accumulated into the zero splat (`matmul_zero_ix2`) and for the host's product (`dotGeneral_ix2`), stated
  for any dimension numbers that contract the left operand's columns with the right operand's rows (the four
  coordinate facts `hl0 … hr1`, which a literal record proves by evaluation).
-/
import Idealize.ShloMosaic.Lib.ValueIdx
import Idealize.ShloMosaic.PureOps.Ideal.Laws

namespace MatmulIx

open Idealize.ShloMosaic Idealize.ShloMosaic.ValueIdx

variable {a K b : ℕ} {φ₁ φ₂ : FTy}

/-- The contraction's sum re-indexed by the one contracted coordinate. -/
theorem sum_contr (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (x : (⟨2, ![a, K]⟩ : Shape).Idx → EReal) (w : (⟨2, ![K, b]⟩ : Shape).Idx → EReal) (p : Fin a) (q : Fin b) :
    ∑ k : D.contr.Idx, x (D.lhsIdx (ix2 p q) k) * w (D.rhsIdx (ix2 p q) k) = ∑ k : Fin K, x (ix2 p k) * w (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun c => Fin.ext (by
    match c with
    | ⟨0, _⟩ => exact hl0 _ _
    | ⟨1, _⟩ => exact (hl1 _ _).trans hk)
  have er : D.rhsIdx (ix2 p q) ((contrEquiv1 D K hr hs).symm k) = ix2 k q := funext fun c => Fin.ext (by
    match c with
    | ⟨0, _⟩ => exact (hr0 _ _).trans hk
    | ⟨1, _⟩ => exact hr1 _ _)
  rw [el, er]

/-- A kernel's matrix product into the zero splat, at `(p, q)`: the row of the left operand times the column of the
    right one. -/
theorem matmul_zero_ix2 (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision)
    (x : FVec Ideal ⟨2, ![a, K]⟩ φ₁) (w : FVec Ideal ⟨2, ![K, b]⟩ φ₂) (p : Fin a) (q : Fin b) :
    matmul D prec x w (constant (F := Ideal) ⟨2, ![a, b]⟩ .f32 0x00000000#32) (ix2 p q)
      = ∑ k : Fin K, x (ix2 p k) * w (ix2 k q) :=
  (Ideal.matmul_constant_zero_apply D prec x w (ix2 p q)).trans (sum_contr D hr hs hl0 hl1 hr0 hr1 x w p q)

/-- The host's matrix product at `(p, q)`: the same sum. -/
theorem dotGeneral_ix2 (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision)
    (x : FVec Ideal ⟨2, ![a, K]⟩ φ₁) (w : FVec Ideal ⟨2, ![K, b]⟩ φ₂) (p : Fin a) (q : Fin b) :
    Host.dotGeneral D prec x w (ix2 p q) = ∑ k : Fin K, x (ix2 p k) * w (ix2 k q) :=
  (Ideal.dotGeneral_apply D prec .single x w (ix2 p q)).trans (sum_contr D hr hs hl0 hl1 hr0 hr1 x w p q)

end MatmulIx
-- ==== Proof.LibRecip.lean ====
/-
  Scaling the rows of an array by per-row reciprocals, against dividing them by the per-row divisors.

  A per-row quantity reaches every entry of an array through two broadcasts (a vector to a column, the column along the
  rows). A broadcast only re-indexes, so it commutes with any entry-by-entry operation; and multiplying by `1 / d` is
  dividing by `d` as soon as `d ≠ 0` — both are the product with `d⁻¹`. Hence an array times the broadcast of the
  reciprocals is the array divided by the broadcast of the divisors, at the infinities too.
-/
import Idealize.ShloMosaic.Lib.Pipeline.Value
import Idealize.ShloMosaic.PureOps.Ideal.Laws

noncomputable section

namespace Cert.Sage.Recip

open Idealize.ShloMosaic

/-- Multiplying by the reciprocal of a nonzero divisor is dividing by it: both are the product with the inverse. -/
theorem mul_one_div {a d : EReal} (hd : d ≠ 0) : a * Ideal.div 1 d = Ideal.div a d := by
  unfold Ideal.div
  rw [if_neg hd, if_neg hd, one_mul]

/-- An array times a twice-broadcast vector of reciprocals `R k = 1 / C k`, with `C` nowhere zero, is the array divided
    by the twice-broadcast vector `C`. -/
theorem mul_bcast_recip {s1 s2 s3 : Shape} (d12 : Fin s1.rank → Fin s2.rank) (h12 : s1.BroadcastsInDim s2 d12)
    (d23 : Fin s2.rank → Fin s3.rank) (h23 : s2.BroadcastsInDim s3 d23) (S : FVec Ideal s3 .f32) (R C : FVec Ideal s1 .f32)
    (hR : ∀ k, R k = Ideal.div 1 (C k)) (hC : ∀ k, C k ≠ 0) :
    mulf S (broadcastInDim s3 d23 h23 (broadcastInDim s2 d12 h12 R))
      = Host.divf S (broadcastInDim s3 d23 h23 (broadcastInDim s2 d12 h12 C)) := by
  funext i
  unfold broadcastInDim
  show S i * R _ = Ideal.div (S i) (C _)
  rw [hR]
  exact mul_one_div (hC _)

end Cert.Sage.Recip

end
-- ==== Proof.LibSageLayer.lean ====
/-
  One layer of a mean-aggregating graph convolution, entry by entry on the extended reals, and the two spellings a
  program gives it.

  With A the matrix of neighbour sums, X the features, n the column of per-row factors, Wl and Wr the two weight
  matrices and r a one-row bias, the layer's entry (p, q) is
      (sum over k of (A(p, k) * n(p, 0)) * Wl(k, q)) + (sum over k of X(p, k) * Wr(k, q)) + r(0, q).
  A vector unit computes it on a block of rows with two matrix products into a zero accumulator and two vector
  broadcasts; a host program divides A by the broadcast row counts instead of multiplying by their reciprocals, and
  uses its own product and broadcasts.  Multiplying by 1 / d is dividing by d as soon as d is not zero, at the
  infinities too, so the two spellings agree whenever no count is zero; nothing else is used, and no operand has to
  be finite.
-/
import Idealize.ShloMosaic.Lib.ValueIdx
import Idealize.ShloMosaic.Lib.ValueLayout
import Idealize.ShloMosaic.Lib.KernelVsHost
import Idealize.ShloMosaic.Lib.IdealHost
import Idealize.ShloMosaic.Lib.Pipeline.Value
import Idealize.ShloMosaic.PureOps.Ideal.Laws
import proofs.«112846_j69286412419426_2_alg».proof.Proof.LibLayout
import proofs.«112846_j69286412419426_2_alg».proof.Proof.LibMatmulIx
import proofs.«112846_j69286412419426_2_alg».proof.Proof.LibRecip

noncomputable section

namespace Sage

open Idealize.ShloMosaic Idealize.ShloMosaic.ValueIdx

variable {a b K : ℕ}

/-- What the readings below ask of a product's dimension numbers: one contracted axis, the left operand's columns
    against the right operand's rows, no batch axis. -/
structure Std (D : DotDims ⟨2, ![a, K]⟩ ⟨2, ![K, b]⟩ ⟨2, ![a, b]⟩) : Prop where
  hr : D.contr.rank = 1
  hs : D.contr.size ⟨0, by omega⟩ = K
  hl0 : ∀ i q, (D.lhsIdx i q 0).val = (i 0).val
  hl1 : ∀ i q, (D.lhsIdx i q 1).val = (q ⟨0, by omega⟩).val
  hr0 : ∀ i q, (D.rhsIdx i q 0).val = (q ⟨0, by omega⟩).val
  hr1 : ∀ i q, (D.rhsIdx i q 1).val = (i 1).val

/-! ## The layer, entry by entry -/

/-- The layer before its nonlinearity. -/
def layer (A X : FVec Ideal ⟨2, ![a, K]⟩ .f32) (n : FVec Ideal ⟨2, ![a, 1]⟩ .f32) (Wl Wr : FVec Ideal ⟨2, ![K, b]⟩ .f32)
    (r : FVec Ideal ⟨2, ![1, b]⟩ .f32) : FVec Ideal ⟨2, ![a, b]⟩ .f32 :=
  fun i => (∑ k : Fin K, (A (ix2 (i 0) k) * n (ix2 (i 0) (0 : Fin 1))) * Wl (ix2 k (i 1)))
    + (∑ k : Fin K, X (ix2 (i 0) k) * Wr (ix2 k (i 1))) + r (ix2 (0 : Fin 1) (i 1))

/-- Every entry clamped below at zero. -/
def relu (z : FVec Ideal ⟨2, ![a, b]⟩ .f32) : FVec Ideal ⟨2, ![a, b]⟩ .f32 :=
  fun i => max (z i) (Ideal.ofBits .f32 0x00000000#32)

/-- A linear read-out: entry (p, q) is the sum over k of h(p, k) * w(k, q), plus r(0, q). -/
def head (h : FVec Ideal ⟨2, ![a, K]⟩ .f32) (w : FVec Ideal ⟨2, ![K, b]⟩ .f32) (r : FVec Ideal ⟨2, ![1, b]⟩ .f32) :
    FVec Ideal ⟨2, ![a, b]⟩ .f32 :=
  fun i => (∑ k : Fin K, h (ix2 (i 0) k) * w (ix2 k (i 1))) + r (ix2 (0 : Fin 1) (i 1))

theorem layer_apply (A X : FVec Ideal ⟨2, ![a, K]⟩ .f32) (n : FVec Ideal ⟨2, ![a, 1]⟩ .f32) (Wl Wr : FVec Ideal ⟨2, ![K, b]⟩ .f32)
    (r : FVec Ideal ⟨2, ![1, b]⟩ .f32) (p : Fin a) (q : Fin b) :
    layer A X n Wl Wr r (ix2 p q) = (∑ k : Fin K, (A (ix2 p k) * n (ix2 p (0 : Fin 1))) * Wl (ix2 k q))
      + (∑ k : Fin K, X (ix2 p k) * Wr (ix2 k q)) + r (ix2 (0 : Fin 1) q) := rfl

theorem relu_apply (z : FVec Ideal ⟨2, ![a, b]⟩ .f32) (i : (⟨2, ![a, b]⟩ : Shape).Idx) :
    relu z i = max (z i) (Ideal.ofBits .f32 0x00000000#32) := rfl

theorem head_apply (h : FVec Ideal ⟨2, ![a, K]⟩ .f32) (w : FVec Ideal ⟨2, ![K, b]⟩ .f32) (r : FVec Ideal ⟨2, ![1, b]⟩ .f32)
    (p : Fin a) (q : Fin b) :
    head h w r (ix2 p q) = (∑ k : Fin K, h (ix2 p k) * w (ix2 k q)) + r (ix2 (0 : Fin 1) q) := rfl

/-! ## The vector unit's spelling, on a block of rows -/

/-- Two products into the zero splat, the first of the neighbour sums scaled by the broadcast factor column, plus the
    broadcast bias row: the layer. -/
theorem vec_layer (D : DotDims ⟨2, ![a, K]⟩ ⟨2, ![K, b]⟩ ⟨2, ![a, b]⟩) (S : Std D)
    (prec : Option ContractPrecision)
    (A X : FVec Ideal ⟨2, ![a, K]⟩ .f32) (n : FVec Ideal ⟨2, ![a, 1]⟩ .f32) (Wl Wr : FVec Ideal ⟨2, ![K, b]⟩ .f32)
    (r : FVec Ideal ⟨2, ![1, b]⟩ .f32)
    (hcA : (⟨2, ![a, K]⟩ : Shape).ShapeCasts ⟨2, ![a, K]⟩) (hcn : (⟨2, ![a, 1]⟩ : Shape).ShapeCasts ⟨2, ![a, 1]⟩)
    (hbn : (⟨2, ![a, 1]⟩ : Shape).Broadcasts ⟨2, ![a, K]⟩)
    (hcr : (⟨2, ![1, b]⟩ : Shape).ShapeCasts ⟨2, ![1, b]⟩) (hbr : (⟨2, ![1, b]⟩ : Shape).Broadcasts ⟨2, ![a, b]⟩) :
    addf (addf
        (matmul D prec (mulf (shapeCast ⟨2, ![a, K]⟩ A hcA) (broadcastTo ⟨2, ![a, K]⟩ (shapeCast ⟨2, ![a, 1]⟩ n hcn) hbn)) Wl
          (constant (F := Ideal) ⟨2, ![a, b]⟩ .f32 0x00000000#32))
        (matmul D prec X Wr (constant (F := Ideal) ⟨2, ![a, b]⟩ .f32 0x00000000#32)))
      (broadcastTo ⟨2, ![a, b]⟩ (shapeCast ⟨2, ![1, b]⟩ r hcr) hbr)
      = layer A X n Wl Wr r := by
  funext i
  obtain ⟨p, q, rfl⟩ : ∃ (p : Fin a) (q : Fin b), i = ix2 p q := ⟨i 0, i 1, eq_ix2 i⟩
  rw [shapeCast_self, shapeCast_self, shapeCast_self, addf_apply, addf_apply,
    MatmulIx.matmul_zero_ix2 D S.hr S.hs S.hl0 S.hl1 S.hr0 S.hr1 prec _ _ p q,
    MatmulIx.matmul_zero_ix2 D S.hr S.hs S.hl0 S.hl1 S.hr0 S.hr1 prec _ _ p q, broadcastTo_1b_ab_apply, layer_apply]
  refine congrArg (· + _ + _) (Finset.sum_congr rfl fun k _ => ?_)
  rw [mulf_apply, Cert.Attn.Layout.broadcastTo_a1_ab_apply]

/-- The same with the features passed through a cast that changes nothing. -/
theorem vec_layer_cast (D : DotDims ⟨2, ![a, K]⟩ ⟨2, ![K, b]⟩ ⟨2, ![a, b]⟩) (S : Std D)
    (prec : Option ContractPrecision)
    (A X : FVec Ideal ⟨2, ![a, K]⟩ .f32) (n : FVec Ideal ⟨2, ![a, 1]⟩ .f32) (Wl Wr : FVec Ideal ⟨2, ![K, b]⟩ .f32)
    (r : FVec Ideal ⟨2, ![1, b]⟩ .f32)
    (hcA hcX : (⟨2, ![a, K]⟩ : Shape).ShapeCasts ⟨2, ![a, K]⟩) (hcn : (⟨2, ![a, 1]⟩ : Shape).ShapeCasts ⟨2, ![a, 1]⟩)
    (hbn : (⟨2, ![a, 1]⟩ : Shape).Broadcasts ⟨2, ![a, K]⟩)
    (hcr : (⟨2, ![1, b]⟩ : Shape).ShapeCasts ⟨2, ![1, b]⟩) (hbr : (⟨2, ![1, b]⟩ : Shape).Broadcasts ⟨2, ![a, b]⟩) :
    addf (addf
        (matmul D prec (mulf (shapeCast ⟨2, ![a, K]⟩ A hcA) (broadcastTo ⟨2, ![a, K]⟩ (shapeCast ⟨2, ![a, 1]⟩ n hcn) hbn)) Wl
          (constant (F := Ideal) ⟨2, ![a, b]⟩ .f32 0x00000000#32))
        (matmul D prec (shapeCast ⟨2, ![a, K]⟩ X hcX) Wr (constant (F := Ideal) ⟨2, ![a, b]⟩ .f32 0x00000000#32)))
      (broadcastTo ⟨2, ![a, b]⟩ (shapeCast ⟨2, ![1, b]⟩ r hcr) hbr)
      = layer A X n Wl Wr r := by
  rw [shapeCast_self X hcX]
  exact vec_layer D S prec A X n Wl Wr r hcA hcn hbn hcr hbr

/-- The vector unit's clamp, the maximum with the zero scalar broadcast, is relu. -/
theorem vec_relu (z : FVec Ideal ⟨2, ![a, b]⟩ .f32) :
    maximumf z (broadcast ⟨2, ![a, b]⟩ (Scalar.ofBits (F := Ideal) .f32 0x00000000#32)) = relu z := rfl

/-- The vector unit's read-out: a product into the zero splat plus the broadcast bias row. -/
theorem vec_head (D : DotDims ⟨2, ![a, K]⟩ ⟨2, ![K, b]⟩ ⟨2, ![a, b]⟩) (S : Std D)
    (prec : Option ContractPrecision)
    (h : FVec Ideal ⟨2, ![a, K]⟩ .f32) (w : FVec Ideal ⟨2, ![K, b]⟩ .f32) (r : FVec Ideal ⟨2, ![1, b]⟩ .f32)
    (hcr : (⟨2, ![1, b]⟩ : Shape).ShapeCasts ⟨2, ![1, b]⟩) (hbr : (⟨2, ![1, b]⟩ : Shape).Broadcasts ⟨2, ![a, b]⟩) :
    addf (matmul D prec h w (constant (F := Ideal) ⟨2, ![a, b]⟩ .f32 0x00000000#32))
      (broadcastTo ⟨2, ![a, b]⟩ (shapeCast ⟨2, ![1, b]⟩ r hcr) hbr) = head h w r := by
  funext i
  obtain ⟨p, q, rfl⟩ : ∃ (p : Fin a) (q : Fin b), i = ix2 p q := ⟨i 0, i 1, eq_ix2 i⟩
  rw [shapeCast_self, addf_apply, MatmulIx.matmul_zero_ix2 D S.hr S.hs S.hl0 S.hl1 S.hr0 S.hr1 prec _ _ p q,
    broadcastTo_1b_ab_apply, head_apply]

/-! ## A block of rows of the layer

The layer's row p depends on row p of the neighbour sums, of the features and of the factor column only.  So the
layer computed on a block of rows — the rows ρ p of the whole matrices — is that block of the layer computed on the
whole matrices. -/

theorem layer_rows {a' : ℕ} (ρ : Fin a' → Fin a) (x0 x1 : FVec Ideal ⟨2, ![a', K]⟩ .f32) (x2 : FVec Ideal ⟨2, ![a', 1]⟩ .f32)
    (A X : FVec Ideal ⟨2, ![a, K]⟩ .f32) (n : FVec Ideal ⟨2, ![a, 1]⟩ .f32) (Wl Wr : FVec Ideal ⟨2, ![K, b]⟩ .f32)
    (r : FVec Ideal ⟨2, ![1, b]⟩ .f32)
    (h0 : ∀ p k, x0 (ix2 p k) = A (ix2 (ρ p) k)) (h1 : ∀ p k, x1 (ix2 p k) = X (ix2 (ρ p) k))
    (h2 : ∀ p, x2 (ix2 p (0 : Fin 1)) = n (ix2 (ρ p) (0 : Fin 1))) (p : Fin a') (q : Fin b) :
    layer x0 x1 x2 Wl Wr r (ix2 p q) = layer A X n Wl Wr r (ix2 (ρ p) q) := by
  rw [layer_apply, layer_apply]
  simp only [h0, h1, h2]

theorem relu_rows {a' : ℕ} (ρ : Fin a' → Fin a) (z : FVec Ideal ⟨2, ![a', b]⟩ .f32) (Z : FVec Ideal ⟨2, ![a, b]⟩ .f32)
    (h : ∀ p q, z (ix2 p q) = Z (ix2 (ρ p) q)) (p : Fin a') (q : Fin b) :
    relu z (ix2 p q) = relu Z (ix2 (ρ p) q) := by
  rw [relu_apply, relu_apply, h]

theorem head_rows {a' : ℕ} (ρ : Fin a' → Fin a) (h : FVec Ideal ⟨2, ![a', K]⟩ .f32) (H : FVec Ideal ⟨2, ![a, K]⟩ .f32)
    (w : FVec Ideal ⟨2, ![K, b]⟩ .f32) (r : FVec Ideal ⟨2, ![1, b]⟩ .f32)
    (hh : ∀ p k, h (ix2 p k) = H (ix2 (ρ p) k)) (p : Fin a') (q : Fin b) :
    head h w r (ix2 p q) = head H w r (ix2 (ρ p) q) := by
  rw [head_apply, head_apply]
  simp only [hh]

/-! ## The host's spelling -/

/-- A vector broadcast to one row and then along the rows reads, at (p, q), the vector's entry q; so does its cast
    to one row read at (0, q). -/
theorem rowOfVector_apply (bias : FVec Ideal ⟨1, ![b]⟩ .f32)
    (h1 : (⟨1, ![b]⟩ : Shape).BroadcastsInDim ⟨2, ![1, b]⟩ ![1])
    (h2 : (⟨2, ![1, b]⟩ : Shape).BroadcastsInDim ⟨2, ![a, b]⟩ ![0, 1]) (p : Fin a) (q : Fin b) :
    broadcastInDim ⟨2, ![a, b]⟩ ![0, 1] h2 (broadcastInDim ⟨2, ![1, b]⟩ ![1] h1 bias) (ix2 p q) = bias (ix1 q) := by
  rw [broadcastInDim_oneRow_apply]
  exact broadcastInDim_apply ![1] h1 bias (ix2 (0 : Fin 1) q) (ix1 q) (fun c => by
    match c with
    | ⟨0, _⟩ =>
      show q.val = if b = 1 then 0 else q.val
      split
      · have := q.isLt; omega
      · rfl)

/-- A vector broadcast to a column reads, at (p, 0), the vector's entry p. -/
theorem colVector_apply (v : FVec Ideal ⟨1, ![a]⟩ .f32) (h1 : (⟨1, ![a]⟩ : Shape).BroadcastsInDim ⟨2, ![a, 1]⟩ ![0]) (p : Fin a) :
    broadcastInDim ⟨2, ![a, 1]⟩ ![0] h1 v (ix2 p (0 : Fin 1)) = v (ix1 p) :=
  broadcastInDim_apply ![0] h1 v (ix2 p (0 : Fin 1)) (ix1 p) (fun d => by
    match d with
    | ⟨0, _⟩ =>
      show p.val = if a = 1 then 0 else p.val
      split
      · have := p.isLt; omega
      · rfl)

/-- A vector broadcast to a column and then along the rows reads, at (p, k), the vector's entry p. -/
theorem colOfVector_apply {c : ℕ} (v : FVec Ideal ⟨1, ![a]⟩ .f32)
    (h1 : (⟨1, ![a]⟩ : Shape).BroadcastsInDim ⟨2, ![a, 1]⟩ ![0])
    (h2 : (⟨2, ![a, 1]⟩ : Shape).BroadcastsInDim ⟨2, ![a, c]⟩ ![0, 1]) (p : Fin a) (k : Fin c) :
    broadcastInDim ⟨2, ![a, c]⟩ ![0, 1] h2 (broadcastInDim ⟨2, ![a, 1]⟩ ![0] h1 v) (ix2 p k) = v (ix1 p) := by
  have e2 : broadcastInDim ⟨2, ![a, c]⟩ ![0, 1] h2 (broadcastInDim ⟨2, ![a, 1]⟩ ![0] h1 v) (ix2 p k)
      = broadcastInDim ⟨2, ![a, 1]⟩ ![0] h1 v (ix2 p (0 : Fin 1)) :=
    broadcastInDim_apply ![0, 1] h2 _ (ix2 p k) (ix2 p (0 : Fin 1)) (fun d => by
      match d with
      | ⟨0, _⟩ =>
        show p.val = if a = 1 then 0 else p.val
        split
        · have := p.isLt; omega
        · rfl
      | ⟨1, _⟩ => show (0 : ℕ) = if (1 : ℕ) = 1 then 0 else _; rw [if_pos rfl])
  rw [e2]
  exact colVector_apply v h1 p

/-- The host's layer — the neighbour sums divided by the row counts broadcast to the matrix, two products, the bias
    vector broadcast to the matrix — is the layer at the column of the counts' reciprocals and the bias cast to one
    row, provided no count is zero. -/
theorem host_layer (D : DotDims ⟨2, ![a, K]⟩ ⟨2, ![K, b]⟩ ⟨2, ![a, b]⟩) (S : Std D)
    (prec : Option ContractPrecision)
    (A X : FVec Ideal ⟨2, ![a, K]⟩ .f32) (C : FVec Ideal ⟨1, ![a]⟩ .f32) (Wl Wr : FVec Ideal ⟨2, ![K, b]⟩ .f32)
    (bias : FVec Ideal ⟨1, ![b]⟩ .f32)
    (h1 : (⟨1, ![a]⟩ : Shape).BroadcastsInDim ⟨2, ![a, 1]⟩ ![0])
    (h2 : (⟨2, ![a, 1]⟩ : Shape).BroadcastsInDim ⟨2, ![a, K]⟩ ![0, 1])
    (hb1 : (⟨1, ![b]⟩ : Shape).BroadcastsInDim ⟨2, ![1, b]⟩ ![1])
    (hb2 : (⟨2, ![1, b]⟩ : Shape).BroadcastsInDim ⟨2, ![a, b]⟩ ![0, 1])
    (h0 : (⟨0, ![]⟩ : Shape).BroadcastsInDim ⟨1, ![a]⟩ ![])
    (hcb : (⟨1, ![b]⟩ : Shape).ShapeCasts ⟨2, ![1, b]⟩)
    (hC : ∀ k, C k ≠ 0) :
    addf (addf
        (Host.dotGeneral D prec (Host.divf A (broadcastInDim ⟨2, ![a, K]⟩ ![0, 1] h2 (broadcastInDim ⟨2, ![a, 1]⟩ ![0] h1 C))) Wl)
        (Host.dotGeneral D prec X Wr))
      (broadcastInDim ⟨2, ![a, b]⟩ ![0, 1] hb2 (broadcastInDim ⟨2, ![1, b]⟩ ![1] hb1 bias))
      = layer A X
          (broadcastInDim ⟨2, ![a, 1]⟩ ![0] h1
            (Host.divf (broadcastInDim ⟨1, ![a]⟩ ![] h0 (constant (F := Ideal) ⟨0, ![]⟩ .f32 0x3F800000#32)) C))
          Wl Wr (shapeCast ⟨2, ![1, b]⟩ bias hcb) := by
  funext i
  obtain ⟨p, q, rfl⟩ : ∃ (p : Fin a) (q : Fin b), i = ix2 p q := ⟨i 0, i 1, eq_ix2 i⟩
  rw [addf_apply, addf_apply, MatmulIx.dotGeneral_ix2 D S.hr S.hs S.hl0 S.hl1 S.hr0 S.hr1 prec _ _ p q,
    MatmulIx.dotGeneral_ix2 D S.hr S.hs S.hl0 S.hl1 S.hr0 S.hr1 prec _ _ p q, rowOfVector_apply, layer_apply, shapeCast_a_1a_apply]
  refine congrArg (· + _ + _) (Finset.sum_congr rfl fun k _ => ?_)
  have en : broadcastInDim ⟨2, ![a, 1]⟩ ![0] h1
      (Host.divf (broadcastInDim ⟨1, ![a]⟩ ![] h0 (constant (F := Ideal) ⟨0, ![]⟩ .f32 0x3F800000#32)) C) (ix2 p (0 : Fin 1))
      = Ideal.div 1 (C (ix1 p)) := by
    rw [colVector_apply]
    show Ideal.div (broadcastInDim ⟨1, ![a]⟩ ![] h0 (constant (F := Ideal) ⟨0, ![]⟩ .f32 0x3F800000#32) (ix1 p)) (C (ix1 p)) = _
    rw [broadcastInDim_apply ![] h0 (constant (F := Ideal) ⟨0, ![]⟩ .f32 0x3F800000#32) (ix1 p) ix0 (fun c => c.elim0),
      constant_apply, Ideal.ofBits_one_f32]
  have ed : Host.divf A (broadcastInDim ⟨2, ![a, K]⟩ ![0, 1] h2 (broadcastInDim ⟨2, ![a, 1]⟩ ![0] h1 C)) (ix2 p k)
      = Ideal.div (A (ix2 p k)) (C (ix1 p)) := by
    show Ideal.div (A (ix2 p k)) (broadcastInDim ⟨2, ![a, K]⟩ ![0, 1] h2 (broadcastInDim ⟨2, ![a, 1]⟩ ![0] h1 C) (ix2 p k)) = _
    rw [colOfVector_apply]
  rw [en, ed, Cert.Sage.Recip.mul_one_div (hC (ix1 p))]

/-- The host's clamp, the maximum with the zero constant broadcast to the matrix, is relu. -/
theorem host_relu (z : FVec Ideal ⟨2, ![a, b]⟩ .f32) (h0 : (⟨0, ![]⟩ : Shape).BroadcastsInDim ⟨2, ![a, b]⟩ ![]) :
    maximumf z (broadcastInDim ⟨2, ![a, b]⟩ ![] h0 (constant (F := Ideal) ⟨0, ![]⟩ .f32 0x00000000#32)) = relu z := by
  funext i
  rw [maximumf_apply, relu_apply,
    broadcastInDim_apply ![] h0 (constant (F := Ideal) ⟨0, ![]⟩ .f32 0x00000000#32) i ix0 (fun c => c.elim0), constant_apply]

/-- The host's read-out — a product plus the bias vector broadcast to the matrix — is head at the bias cast to one
    row. -/
theorem host_head (D : DotDims ⟨2, ![a, K]⟩ ⟨2, ![K, b]⟩ ⟨2, ![a, b]⟩) (S : Std D)
    (prec : Option ContractPrecision)
    (h : FVec Ideal ⟨2, ![a, K]⟩ .f32) (w : FVec Ideal ⟨2, ![K, b]⟩ .f32) (bias : FVec Ideal ⟨1, ![b]⟩ .f32)
    (hb1 : (⟨1, ![b]⟩ : Shape).BroadcastsInDim ⟨2, ![1, b]⟩ ![1])
    (hb2 : (⟨2, ![1, b]⟩ : Shape).BroadcastsInDim ⟨2, ![a, b]⟩ ![0, 1])
    (hcb : (⟨1, ![b]⟩ : Shape).ShapeCasts ⟨2, ![1, b]⟩) :
    addf (Host.dotGeneral D prec h w)
      (broadcastInDim ⟨2, ![a, b]⟩ ![0, 1] hb2 (broadcastInDim ⟨2, ![1, b]⟩ ![1] hb1 bias))
      = head h w (shapeCast ⟨2, ![1, b]⟩ bias hcb) := by
  funext i
  obtain ⟨p, q, rfl⟩ : ∃ (p : Fin a) (q : Fin b), i = ix2 p q := ⟨i 0, i 1, eq_ix2 i⟩
  rw [addf_apply, MatmulIx.dotGeneral_ix2 D S.hr S.hs S.hl0 S.hl1 S.hr0 S.hr1 prec _ _ p q, rowOfVector_apply, head_apply,
    shapeCast_a_1a_apply]

/-- A maximum with one is never zero. -/
theorem max_one_ne_zero (x : EReal) : max x 1 ≠ 0 := by
  have h : (0 : EReal) < max x 1 := lt_of_lt_of_le zero_lt_one (le_max_right x 1)
  exact ne_of_gt h

end Sage

end
-- ==== Proof.KDims.lean ====
/-
  The four matrix products of the program contract the left operand's columns with the right operand's rows and have
  no batch axis: the facts the entry-by-entry readings of a product ask for, read off the printed dimension records.
-/
import proofs.«112846_j69286412419426_2_alg».proof.Proof.Gen.KernelIdeal
import proofs.«112846_j69286412419426_2_alg».proof.Proof.LibSageLayer

namespace Cert.KernelIdeal.Hand

open Cert.KernelIdeal Idealize.ShloMosaic

/-- The [5000, 128] by [128, 256] product contracts the left columns with the right rows. -/
theorem std_128_256 : Sage.Std (a := 5000) (K := 128) (b := 256) dot_S5000x128_S128x256_S5000x256_1_0_0_1_n_n where
  hr := rfl
  hs := rfl
  hl0 := fun i q => by
    unfold DotDims.lhsIdx
    rw [dif_neg (show ¬(0 : Fin S5000x128.rank) ∈ dot_S5000x128_S128x256_S5000x256_1_0_0_1_n_n.lhsBatch by decide),
      dif_pos (show (0 : Fin S5000x128.rank) ∈ dot_S5000x128_S128x256_S5000x256_1_0_0_1_n_n.lhsNonContracting by decide)]
    rfl
  hl1 := fun i q => dot_S5000x128_S128x256_S5000x256_1_0_0_1_n_n.lhsIdx_val_of_single rfl i q
  hr0 := fun i q => dot_S5000x128_S128x256_S5000x256_1_0_0_1_n_n.rhsIdx_val_of_single rfl i q
  hr1 := fun i q => by
    unfold DotDims.rhsIdx
    rw [dif_neg (show ¬(1 : Fin S128x256.rank) ∈ dot_S5000x128_S128x256_S5000x256_1_0_0_1_n_n.rhsBatch by decide),
      dif_pos (show (1 : Fin S128x256.rank) ∈ dot_S5000x128_S128x256_S5000x256_1_0_0_1_n_n.rhsNonContracting by decide)]
    rfl

/-- The [5000, 256] by [256, 256] product contracts the left columns with the right rows. -/
theorem std_256_256 : Sage.Std (a := 5000) (K := 256) (b := 256) dot_S5000x256_S256x256_S5000x256_1_0_0_1_n_n where
  hr := rfl
  hs := rfl
  hl0 := fun i q => by
    unfold DotDims.lhsIdx
    rw [dif_neg (show ¬(0 : Fin S5000x256.rank) ∈ dot_S5000x256_S256x256_S5000x256_1_0_0_1_n_n.lhsBatch by decide),
      dif_pos (show (0 : Fin S5000x256.rank) ∈ dot_S5000x256_S256x256_S5000x256_1_0_0_1_n_n.lhsNonContracting by decide)]
    rfl
  hl1 := fun i q => dot_S5000x256_S256x256_S5000x256_1_0_0_1_n_n.lhsIdx_val_of_single rfl i q
  hr0 := fun i q => dot_S5000x256_S256x256_S5000x256_1_0_0_1_n_n.rhsIdx_val_of_single rfl i q
  hr1 := fun i q => by
    unfold DotDims.rhsIdx
    rw [dif_neg (show ¬(1 : Fin S256x256.rank) ∈ dot_S5000x256_S256x256_S5000x256_1_0_0_1_n_n.rhsBatch by decide),
      dif_pos (show (1 : Fin S256x256.rank) ∈ dot_S5000x256_S256x256_S5000x256_1_0_0_1_n_n.rhsNonContracting by decide)]
    rfl

/-- The [5000, 256] by [256, 128] product contracts the left columns with the right rows. -/
theorem std_256_128 : Sage.Std (a := 5000) (K := 256) (b := 128) dot_S5000x256_S256x128_S5000x128_1_0_0_1_n_n where
  hr := rfl
  hs := rfl
  hl0 := fun i q => by
    unfold DotDims.lhsIdx
    rw [dif_neg (show ¬(0 : Fin S5000x256.rank) ∈ dot_S5000x256_S256x128_S5000x128_1_0_0_1_n_n.lhsBatch by decide),
      dif_pos (show (0 : Fin S5000x256.rank) ∈ dot_S5000x256_S256x128_S5000x128_1_0_0_1_n_n.lhsNonContracting by decide)]
    rfl
  hl1 := fun i q => dot_S5000x256_S256x128_S5000x128_1_0_0_1_n_n.lhsIdx_val_of_single rfl i q
  hr0 := fun i q => dot_S5000x256_S256x128_S5000x128_1_0_0_1_n_n.rhsIdx_val_of_single rfl i q
  hr1 := fun i q => by
    unfold DotDims.rhsIdx
    rw [dif_neg (show ¬(1 : Fin S256x128.rank) ∈ dot_S5000x256_S256x128_S5000x128_1_0_0_1_n_n.rhsBatch by decide),
      dif_pos (show (1 : Fin S256x128.rank) ∈ dot_S5000x256_S256x128_S5000x128_1_0_0_1_n_n.rhsNonContracting by decide)]
    rfl

/-- The [5000, 128] by [128, 2] product contracts the left columns with the right rows. -/
theorem std_128_2 : Sage.Std (a := 5000) (K := 128) (b := 2) dot_S5000x128_S128x2_S5000x2_1_0_0_1_n_n where
  hr := rfl
  hs := rfl
  hl0 := fun i q => by
    unfold DotDims.lhsIdx
    rw [dif_neg (show ¬(0 : Fin S5000x128.rank) ∈ dot_S5000x128_S128x2_S5000x2_1_0_0_1_n_n.lhsBatch by decide),
      dif_pos (show (0 : Fin S5000x128.rank) ∈ dot_S5000x128_S128x2_S5000x2_1_0_0_1_n_n.lhsNonContracting by decide)]
    rfl
  hl1 := fun i q => dot_S5000x128_S128x2_S5000x2_1_0_0_1_n_n.lhsIdx_val_of_single rfl i q
  hr0 := fun i q => dot_S5000x128_S128x2_S5000x2_1_0_0_1_n_n.rhsIdx_val_of_single rfl i q
  hr1 := fun i q => by
    unfold DotDims.rhsIdx
    rw [dif_neg (show ¬(1 : Fin S128x2.rank) ∈ dot_S5000x128_S128x2_S5000x2_1_0_0_1_n_n.rhsBatch by decide),
      dif_pos (show (1 : Fin S128x2.rank) ∈ dot_S5000x128_S128x2_S5000x2_1_0_0_1_n_n.rhsNonContracting by decide)]
    rfl

end Cert.KernelIdeal.Hand
-- ==== Proof.KRows.lean ====
/-
  Row 5000 n + p of a 50000-row array: the row that entry p of the n-th block of 5000 rows sits in.
-/
import Idealize.ShloMosaic.Lib.ValueIdx

namespace Cert.KernelIdeal.Hand

/-- The array row of block n's row p. -/
def rowOf (n : ℕ) (hn : n < 10) (p : Fin 5000) : Fin 50000 := ⟨5000 * n + p.val, by have := p.isLt; omega⟩

theorem rowOf_val (n : ℕ) (hn : n < 10) (p : Fin 5000) : (rowOf n hn p).val = 5000 * n + p.val := rfl

/-- Offsets (0, 0) are the zero offsets. -/
theorem hz : (![0, 0] : Fin 2 → Nat) = fun _ => 0 := funext fun a => by fin_cases a <;> rfl

end Cert.KernelIdeal.Hand
-- ==== Proof.Region0.lean ====
/-
  Region 0 of the program, read as a value.  The grid has ten points; at point t the body sees rows 5000 t … 5000 t + 4999
  of the neighbour sums, of the features and of the factor column, and the weight and bias arrays whole, and stores
  the layer clamped at zero of those rows into the same rows of its result.  A row of the layer depends on
  that row of its row-indexed operands only, and the ten row blocks cover the 50000 rows, so after the region the result
  array holds the layer clamped at zero of the whole arrays as the region found them.
-/
import proofs.«112846_j69286412419426_2_alg».proof.Proof.PKernelIdealFrame
import proofs.«112846_j69286412419426_2_alg».proof.Proof.LibSageLayer
import proofs.«112846_j69286412419426_2_alg».proof.Proof.KDims
import proofs.«112846_j69286412419426_2_alg».proof.Proof.KRows
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

/-- The value the region leaves in its result array, as one function of the arrays it reads. -/
abbrev G0 (y0 : FVec Ideal S50000x128 .f32) (y1 : FVec Ideal S50000x128 .f32) (y2 : FVec Ideal S50000x1 .f32) (y3 : FVec Ideal S128x256 .f32) (y4 : FVec Ideal S128x256 .f32) (y5 : FVec Ideal S1x256 .f32) : FVec Ideal S50000x256 .f32 :=
  Sage.relu (Sage.layer y0 y1 y2 y3 y4 y5)

/-- Equal arrays give equal values. -/
theorem G0_congr {y0 z0 : FVec Ideal S50000x128 .f32} {y1 z1 : FVec Ideal S50000x128 .f32} {y2 z2 : FVec Ideal S50000x1 .f32} {y3 z3 : FVec Ideal S128x256 .f32} {y4 z4 : FVec Ideal S128x256 .f32} {y5 z5 : FVec Ideal S1x256 .f32} (h0 : y0 = z0) (h1 : y1 = z1) (h2 : y2 = z2) (h3 : y3 = z3) (h4 : y4 = z4) (h5 : y5 = z5) :
    G0 y0 y1 y2 y3 y4 y5 = G0 z0 z1 z2 z3 z4 z5 := by
  subst h0 h1 h2 h3 h4 h5; rfl

/-- The body's stored value is the layer clamped at zero of the blocks it loaded. -/
theorem pay0_eq (x0 : Vec Ideal S5000x128 .f32) (x1 : Vec Ideal S5000x128 .f32) (x2 : Vec Ideal S5000x1 .f32) (x3 : Vec Ideal S128x256 .f32) (x4 : Vec Ideal S128x256 .f32) (x5 : Vec Ideal S1x256 .f32) :
    k0_pay1 x0 x1 x2 x3 x4 x5 = Sage.relu (Sage.layer x0 x1 x2 x3 x4 x5) := by
  unfold k0_pay1
  exact congrArg Sage.relu (Sage.vec_layer _ std_128_256 (some .fp32) x0 x1 x2 x3 x4 x5 _ _ _ _ _)

/-- The printed index maps, decided over the grid: a row-indexed window's block index at point t is (t, 0), a whole
    window's is (0, 0). -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Window 0's block at point t is rows 5000 t … 5000 t + 4999 of its array. -/
theorem blk0_0 (c : Dev nD) (t : Fin cfg0.N) (ht : t.val < 10) (p : Fin 5000) (k : Fin 128) :
    (iblk0 V c 0 t : Vec Ideal S5000x128 .f32) (ix2 p k)
      = (V c main_v22 : S50000x128.Idx → Elt Ideal .f32) (ix2 (rowOf t.val ht p) k) := by
  obtain ⟨e0, e1, -, -, -, -, -, -, -, -, -, -, -, -⟩ := idx0 t
  unfold iblk0
  rw [View.read_apply]
  show V c main_v22 _ = V c main_v22 _
  congr 1
  funext a
  apply Fin.ext
  match a with
  | ⟨0, _⟩ => show win0_0.index t (0 : Fin 2) * 5000 + 1 * p.val = 5000 * t.val + p.val; rw [e0]; omega
  | ⟨1, _⟩ => show win0_0.index t (1 : Fin 2) * 128 + 1 * k.val = k.val; rw [e1]; omega

/-- Window 1's block at point t is rows 5000 t … 5000 t + 4999 of its array. -/
theorem blk0_1 (c : Dev nD) (t : Fin cfg0.N) (ht : t.val < 10) (p : Fin 5000) (k : Fin 128) :
    (iblk0 V c 1 t : Vec Ideal S5000x128 .f32) (ix2 p k)
      = (V c main_arg0 : S50000x128.Idx → Elt Ideal .f32) (ix2 (rowOf t.val ht p) k) := by
  obtain ⟨-, -, e0, e1, -, -, -, -, -, -, -, -, -, -⟩ := idx0 t
  unfold iblk0
  rw [View.read_apply]
  show V c main_arg0 _ = V c main_arg0 _
  congr 1
  funext a
  apply Fin.ext
  match a with
  | ⟨0, _⟩ => show win0_1.index t (0 : Fin 2) * 5000 + 1 * p.val = 5000 * t.val + p.val; rw [e0]; omega
  | ⟨1, _⟩ => show win0_1.index t (1 : Fin 2) * 128 + 1 * k.val = k.val; rw [e1]; omega

/-- Window 2's block at point t is rows 5000 t … 5000 t + 4999 of its array. -/
theorem blk0_2 (c : Dev nD) (t : Fin cfg0.N) (ht : t.val < 10) (p : Fin 5000) (u : Fin 1) :
    (iblk0 V c 2 t : Vec Ideal S5000x1 .f32) (ix2 p u)
      = (V c main_v12 : S50000x1.Idx → Elt Ideal .f32) (ix2 (rowOf t.val ht p) u) := by
  obtain ⟨-, -, -, -, e0, e1, -, -, -, -, -, -, -, -⟩ := idx0 t
  unfold iblk0
  rw [View.read_apply]
  show V c main_v12 _ = V c main_v12 _
  congr 1
  funext a
  apply Fin.ext
  match a with
  | ⟨0, _⟩ => show win0_2.index t (0 : Fin 2) * 5000 + 1 * p.val = 5000 * t.val + p.val; rw [e0]; omega
  | ⟨1, _⟩ => show win0_2.index t (1 : Fin 2) * 1 + 1 * u.val = u.val; rw [e1]; omega

/-- Window 3's block is its whole array at every point. -/
theorem blk0_3 (c : Dev nD) (t : Fin cfg0.N) :
    (iblk0 V c 3 t : Vec Ideal S128x256 .f32) = (V c main_arg2 : S128x256.Idx → Elt Ideal .f32) := by
  obtain ⟨-, -, -, -, -, -, e0, e1, -, -, -, -, -, -⟩ := idx0 t
  funext j
  unfold iblk0
  rw [View.read_apply]
  show V c main_arg2 _ = V c main_arg2 j
  congr 1
  funext a
  apply Fin.ext
  match a with
  | ⟨0, _⟩ => show win0_3.index t (0 : Fin 2) * 128 + 1 * (j 0).val = (j 0).val; rw [e0]; omega
  | ⟨1, _⟩ => show win0_3.index t (1 : Fin 2) * 256 + 1 * (j 1).val = (j 1).val; rw [e1]; omega

/-- Window 4's block is its whole array at every point. -/
theorem blk0_4 (c : Dev nD) (t : Fin cfg0.N) :
    (iblk0 V c 4 t : Vec Ideal S128x256 .f32) = (V c main_arg3 : S128x256.Idx → Elt Ideal .f32) := by
  obtain ⟨-, -, -, -, -, -, -, -, e0, e1, -, -, -, -⟩ := idx0 t
  funext j
  unfold iblk0
  rw [View.read_apply]
  show V c main_arg3 _ = V c main_arg3 j
  congr 1
  funext a
  apply Fin.ext
  match a with
  | ⟨0, _⟩ => show win0_4.index t (0 : Fin 2) * 128 + 1 * (j 0).val = (j 0).val; rw [e0]; omega
  | ⟨1, _⟩ => show win0_4.index t (1 : Fin 2) * 256 + 1 * (j 1).val = (j 1).val; rw [e1]; omega

/-- Window 5's block is its whole array at every point. -/
theorem blk0_5 (c : Dev nD) (t : Fin cfg0.N) :
    (iblk0 V c 5 t : Vec Ideal S1x256 .f32) = (V c main_v23 : S1x256.Idx → Elt Ideal .f32) := by
  obtain ⟨-, -, -, -, -, -, -, -, -, -, e0, e1, -, -⟩ := idx0 t
  funext j
  unfold iblk0
  rw [View.read_apply]
  show V c main_v23 _ = V c main_v23 j
  congr 1
  funext a
  apply Fin.ext
  match a with
  | ⟨0, _⟩ => show win0_5.index t (0 : Fin 2) * 1 + 1 * (j 0).val = (j 0).val; rw [e0]; omega
  | ⟨1, _⟩ => show win0_5.index t (1 : Fin 2) * 256 + 1 * (j 1).val = (j 1).val; rw [e1]; omega

/-- Where entry (p, q) of the result's block at point t sits in the result array. -/
theorem emb0_6 (t : Fin cfg0.N) (ht : t.val < 10) (p : Fin 5000) (q : Fin 256) :
    ((cfg0.win 6).blk t).view.emb (ix2 p q) = (ix2 (rowOf t.val ht p) q : S50000x256.Idx) := by
  obtain ⟨-, -, -, -, -, -, -, -, -, -, -, -, e0, e1⟩ := idx0 t
  funext a
  apply Fin.ext
  match a with
  | ⟨0, _⟩ => show win0_6.index t (0 : Fin 2) * 5000 + 1 * p.val = 5000 * t.val + p.val; rw [e0]; omega
  | ⟨1, _⟩ => show win0_6.index t (1 : Fin 2) * 256 + 1 * q.val = q.val; rw [e1]; omega

/-- What point t writes back is block t of the region's value. -/
theorem flushed0_eq (c : Dev nD) (t : Fin cfg0.N) :
    (dat0 V c).flushed 6 t = ((cfg0.win 6).blk t).view.read (Elt Ideal) (G0 (V c main_v22) (V c main_arg0) (V c main_v12) (V c main_arg2) (V c main_arg3) (V c main_v23)) := by
  have ht : t.val < 10 := lt_of_lt_of_eq t.isLt (show cfg0.N = 10 from N_0)
  show (cfg0.win 6).cut (grid0.coords t) ((dat0 V c).after 6 t) = _
  rw [after0_6]
  unfold out0_6
  rw [View.canon_unit_zero hz]
  simp only [View.ld_unit_zero (S := S5000x128) hz, View.ld_unit_zero (S := S5000x1) hz, View.ld_unit_zero (S := S128x256) hz, View.ld_unit_zero (S := S1x256) hz]
  rw [pay0_eq, blk0_3 V c t, blk0_4 V c t, blk0_5 V c t]
  funext j
  obtain ⟨p, q, rfl⟩ : ∃ (p : Fin 5000) (q : Fin 256), j = ix2 p q := ⟨j 0, j 1, eq_ix2 j⟩
  rw [View.read_apply, emb0_6 t ht p q]
  exact Sage.relu_rows (rowOf t.val ht) _ _ (Sage.layer_rows (rowOf t.val ht) _ _ _ _ _ _ _ _ _
    (blk0_0 V c t ht) (blk0_1 V c t ht) (fun p => blk0_2 V c t ht p 0)) p q

/-- An index of the result array is in point t's block iff each coordinate is in the block's range on its axis. -/
theorem mem_blk0_6 (t : Fin cfg0.N) (i : S50000x256.Idx) :
    i ∈ ((cfg0.win 6).blk t).view.set ↔ ∀ a : Fin 2, win0_6.index t a * S5000x256.size a ≤ (i a).val
      ∧ (i a).val < win0_6.index t a * S5000x256.size a + S5000x256.size a := by
  show i ∈ ((View.whole main_v24).slice (win0_6.rect t)).set ↔ _
  rw [View.set_slice_whole, Rect.mem_set_unit]
  exact Iff.rfl

/-- Row i / 5000 is the point whose block holds row i: the ten blocks cover the array. -/
theorem cover0 (i : S50000x256.Idx) :
    ∃ t : Fin cfg0.N, (cfg0.win 6).flush t = true ∧ i ∈ ((cfg0.win 6).blk t).view.set := by
  have hi0 : (i 0).val < 50000 := (i 0).isLt
  have hi1 : (i 1).val < 256 := (i 1).isLt
  have hN : (i 0).val / 5000 < cfg0.N := by rw [show cfg0.N = 10 from N_0]; omega
  obtain ⟨-, -, -, -, -, -, -, -, -, -, -, -, e0, e1⟩ := idx0 ⟨(i 0).val / 5000, hN⟩
  refine ⟨⟨(i 0).val / 5000, hN⟩, flush0_6 _, ?_⟩
  rw [mem_blk0_6]
  intro a
  match a with
  | ⟨0, _⟩ =>
    show win0_6.index ⟨(i 0).val / 5000, hN⟩ (0 : Fin 2) * 5000 ≤ (i 0).val
      ∧ (i 0).val < win0_6.index ⟨(i 0).val / 5000, hN⟩ (0 : Fin 2) * 5000 + 5000
    rw [e0]; show (i 0).val / 5000 * 5000 ≤ (i 0).val ∧ (i 0).val < (i 0).val / 5000 * 5000 + 5000; omega
  | ⟨1, _⟩ =>
    show win0_6.index ⟨(i 0).val / 5000, hN⟩ (1 : Fin 2) * 256 ≤ (i 1).val
      ∧ (i 1).val < win0_6.index ⟨(i 0).val / 5000, hN⟩ (1 : Fin 2) * 256 + 256
    rw [e1]; omega

/-- The result array after the region: the layer clamped at zero of the arrays the region found. -/
theorem final0 (c : Dev nD) :
    (dat0 V c).arrAt 6 cfg0.N = G0 (V c main_v22) (V c main_arg0) (V c main_v12) (V c main_arg2) (V c main_arg3) (V c main_v23) :=
  (dat0 V c).arrAt_eq_of_cover 6 _ (fun t _ => flushed0_eq V c t) cover0

end Cert.KernelIdeal.Hand

end
-- ==== Proof.Region1.lean ====
/-
  Region 1 of the program, read as a value.  The grid has ten points; at point t the body sees rows 5000 t … 5000 t + 4999
  of the neighbour sums, of the features and of the factor column, and the weight and bias arrays whole, and stores
  the layer clamped at zero of those rows into the same rows of its result.  A row of the layer depends on
  that row of its row-indexed operands only, and the ten row blocks cover the 50000 rows, so after the region the result
  array holds the layer clamped at zero of the whole arrays as the region found them.
-/
import proofs.«112846_j69286412419426_2_alg».proof.Proof.PKernelIdealFrame
import proofs.«112846_j69286412419426_2_alg».proof.Proof.LibSageLayer
import proofs.«112846_j69286412419426_2_alg».proof.Proof.KDims
import proofs.«112846_j69286412419426_2_alg».proof.Proof.KRows
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

/-- The value the region leaves in its result array, as one function of the arrays it reads. -/
abbrev G1 (y0 : FVec Ideal S50000x256 .f32) (y1 : FVec Ideal S50000x256 .f32) (y2 : FVec Ideal S50000x1 .f32) (y3 : FVec Ideal S256x256 .f32) (y4 : FVec Ideal S256x256 .f32) (y5 : FVec Ideal S1x256 .f32) : FVec Ideal S50000x256 .f32 :=
  Sage.relu (Sage.layer y0 y1 y2 y3 y4 y5)

/-- Equal arrays give equal values. -/
theorem G1_congr {y0 z0 : FVec Ideal S50000x256 .f32} {y1 z1 : FVec Ideal S50000x256 .f32} {y2 z2 : FVec Ideal S50000x1 .f32} {y3 z3 : FVec Ideal S256x256 .f32} {y4 z4 : FVec Ideal S256x256 .f32} {y5 z5 : FVec Ideal S1x256 .f32} (h0 : y0 = z0) (h1 : y1 = z1) (h2 : y2 = z2) (h3 : y3 = z3) (h4 : y4 = z4) (h5 : y5 = z5) :
    G1 y0 y1 y2 y3 y4 y5 = G1 z0 z1 z2 z3 z4 z5 := by
  subst h0 h1 h2 h3 h4 h5; rfl

/-- The body's stored value is the layer clamped at zero of the blocks it loaded. -/
theorem pay1_eq (x0 : Vec Ideal S5000x256 .f32) (x1 : Vec Ideal S5000x256 .f32) (x2 : Vec Ideal S5000x1 .f32) (x3 : Vec Ideal S256x256 .f32) (x4 : Vec Ideal S256x256 .f32) (x5 : Vec Ideal S1x256 .f32) :
    k1_pay1 x0 x1 x2 x3 x4 x5 = Sage.relu (Sage.layer x0 x1 x2 x3 x4 x5) := by
  unfold k1_pay1
  exact congrArg Sage.relu (Sage.vec_layer_cast _ std_256_256 (some .fp32) x0 x1 x2 x3 x4 x5 _ _ _ _ _ _)

/-- The printed index maps, decided over the grid: a row-indexed window's block index at point t is (t, 0), a whole
    window's is (0, 0). -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Window 0's block at point t is rows 5000 t … 5000 t + 4999 of its array. -/
theorem blk1_0 (c : Dev nD) (t : Fin cfg1.N) (ht : t.val < 10) (p : Fin 5000) (k : Fin 256) :
    (iblk1 V c 0 t : Vec Ideal S5000x256 .f32) (ix2 p k)
      = (V c main_v34 : S50000x256.Idx → Elt Ideal .f32) (ix2 (rowOf t.val ht p) k) := by
  obtain ⟨e0, e1, -, -, -, -, -, -, -, -, -, -, -, -⟩ := idx1 t
  unfold iblk1
  rw [View.read_apply]
  show V c main_v34 _ = V c main_v34 _
  congr 1
  funext a
  apply Fin.ext
  match a with
  | ⟨0, _⟩ => show win1_0.index t (0 : Fin 2) * 5000 + 1 * p.val = 5000 * t.val + p.val; rw [e0]; omega
  | ⟨1, _⟩ => show win1_0.index t (1 : Fin 2) * 256 + 1 * k.val = k.val; rw [e1]; omega

/-- Window 1's block at point t is rows 5000 t … 5000 t + 4999 of its array. -/
theorem blk1_1 (c : Dev nD) (t : Fin cfg1.N) (ht : t.val < 10) (p : Fin 5000) (k : Fin 256) :
    (iblk1 V c 1 t : Vec Ideal S5000x256 .f32) (ix2 p k)
      = (V c main_v24 : S50000x256.Idx → Elt Ideal .f32) (ix2 (rowOf t.val ht p) k) := by
  obtain ⟨-, -, e0, e1, -, -, -, -, -, -, -, -, -, -⟩ := idx1 t
  unfold iblk1
  rw [View.read_apply]
  show V c main_v24 _ = V c main_v24 _
  congr 1
  funext a
  apply Fin.ext
  match a with
  | ⟨0, _⟩ => show win1_1.index t (0 : Fin 2) * 5000 + 1 * p.val = 5000 * t.val + p.val; rw [e0]; omega
  | ⟨1, _⟩ => show win1_1.index t (1 : Fin 2) * 256 + 1 * k.val = k.val; rw [e1]; omega

/-- Window 2's block at point t is rows 5000 t … 5000 t + 4999 of its array. -/
theorem blk1_2 (c : Dev nD) (t : Fin cfg1.N) (ht : t.val < 10) (p : Fin 5000) (u : Fin 1) :
    (iblk1 V c 2 t : Vec Ideal S5000x1 .f32) (ix2 p u)
      = (V c main_v12 : S50000x1.Idx → Elt Ideal .f32) (ix2 (rowOf t.val ht p) u) := by
  obtain ⟨-, -, -, -, e0, e1, -, -, -, -, -, -, -, -⟩ := idx1 t
  unfold iblk1
  rw [View.read_apply]
  show V c main_v12 _ = V c main_v12 _
  congr 1
  funext a
  apply Fin.ext
  match a with
  | ⟨0, _⟩ => show win1_2.index t (0 : Fin 2) * 5000 + 1 * p.val = 5000 * t.val + p.val; rw [e0]; omega
  | ⟨1, _⟩ => show win1_2.index t (1 : Fin 2) * 1 + 1 * u.val = u.val; rw [e1]; omega

/-- Window 3's block is its whole array at every point. -/
theorem blk1_3 (c : Dev nD) (t : Fin cfg1.N) :
    (iblk1 V c 3 t : Vec Ideal S256x256 .f32) = (V c main_arg5 : S256x256.Idx → Elt Ideal .f32) := by
  obtain ⟨-, -, -, -, -, -, e0, e1, -, -, -, -, -, -⟩ := idx1 t
  funext j
  unfold iblk1
  rw [View.read_apply]
  show V c main_arg5 _ = V c main_arg5 j
  congr 1
  funext a
  apply Fin.ext
  match a with
  | ⟨0, _⟩ => show win1_3.index t (0 : Fin 2) * 256 + 1 * (j 0).val = (j 0).val; rw [e0]; omega
  | ⟨1, _⟩ => show win1_3.index t (1 : Fin 2) * 256 + 1 * (j 1).val = (j 1).val; rw [e1]; omega

/-- Window 4's block is its whole array at every point. -/
theorem blk1_4 (c : Dev nD) (t : Fin cfg1.N) :
    (iblk1 V c 4 t : Vec Ideal S256x256 .f32) = (V c main_arg6 : S256x256.Idx → Elt Ideal .f32) := by
  obtain ⟨-, -, -, -, -, -, -, -, e0, e1, -, -, -, -⟩ := idx1 t
  funext j
  unfold iblk1
  rw [View.read_apply]
  show V c main_arg6 _ = V c main_arg6 j
  congr 1
  funext a
  apply Fin.ext
  match a with
  | ⟨0, _⟩ => show win1_4.index t (0 : Fin 2) * 256 + 1 * (j 0).val = (j 0).val; rw [e0]; omega
  | ⟨1, _⟩ => show win1_4.index t (1 : Fin 2) * 256 + 1 * (j 1).val = (j 1).val; rw [e1]; omega

/-- Window 5's block is its whole array at every point. -/
theorem blk1_5 (c : Dev nD) (t : Fin cfg1.N) :
    (iblk1 V c 5 t : Vec Ideal S1x256 .f32) = (V c main_v35 : S1x256.Idx → Elt Ideal .f32) := by
  obtain ⟨-, -, -, -, -, -, -, -, -, -, e0, e1, -, -⟩ := idx1 t
  funext j
  unfold iblk1
  rw [View.read_apply]
  show V c main_v35 _ = V c main_v35 j
  congr 1
  funext a
  apply Fin.ext
  match a with
  | ⟨0, _⟩ => show win1_5.index t (0 : Fin 2) * 1 + 1 * (j 0).val = (j 0).val; rw [e0]; omega
  | ⟨1, _⟩ => show win1_5.index t (1 : Fin 2) * 256 + 1 * (j 1).val = (j 1).val; rw [e1]; omega

/-- Where entry (p, q) of the result's block at point t sits in the result array. -/
theorem emb1_6 (t : Fin cfg1.N) (ht : t.val < 10) (p : Fin 5000) (q : Fin 256) :
    ((cfg1.win 6).blk t).view.emb (ix2 p q) = (ix2 (rowOf t.val ht p) q : S50000x256.Idx) := by
  obtain ⟨-, -, -, -, -, -, -, -, -, -, -, -, e0, e1⟩ := idx1 t
  funext a
  apply Fin.ext
  match a with
  | ⟨0, _⟩ => show win1_6.index t (0 : Fin 2) * 5000 + 1 * p.val = 5000 * t.val + p.val; rw [e0]; omega
  | ⟨1, _⟩ => show win1_6.index t (1 : Fin 2) * 256 + 1 * q.val = q.val; rw [e1]; omega

/-- What point t writes back is block t of the region's value. -/
theorem flushed1_eq (c : Dev nD) (t : Fin cfg1.N) :
    (dat1 V c).flushed 6 t = ((cfg1.win 6).blk t).view.read (Elt Ideal) (G1 (V c main_v34) (V c main_v24) (V c main_v12) (V c main_arg5) (V c main_arg6) (V c main_v35)) := by
  have ht : t.val < 10 := lt_of_lt_of_eq t.isLt (show cfg1.N = 10 from N_1)
  show (cfg1.win 6).cut (grid1.coords t) ((dat1 V c).after 6 t) = _
  rw [after1_6]
  unfold out1_6
  rw [View.canon_unit_zero hz]
  simp only [View.ld_unit_zero (S := S5000x256) hz, View.ld_unit_zero (S := S5000x1) hz, View.ld_unit_zero (S := S256x256) hz, View.ld_unit_zero (S := S1x256) hz]
  rw [pay1_eq, blk1_3 V c t, blk1_4 V c t, blk1_5 V c t]
  funext j
  obtain ⟨p, q, rfl⟩ : ∃ (p : Fin 5000) (q : Fin 256), j = ix2 p q := ⟨j 0, j 1, eq_ix2 j⟩
  rw [View.read_apply, emb1_6 t ht p q]
  exact Sage.relu_rows (rowOf t.val ht) _ _ (Sage.layer_rows (rowOf t.val ht) _ _ _ _ _ _ _ _ _
    (blk1_0 V c t ht) (blk1_1 V c t ht) (fun p => blk1_2 V c t ht p 0)) p q

/-- An index of the result array is in point t's block iff each coordinate is in the block's range on its axis. -/
theorem mem_blk1_6 (t : Fin cfg1.N) (i : S50000x256.Idx) :
    i ∈ ((cfg1.win 6).blk t).view.set ↔ ∀ a : Fin 2, win1_6.index t a * S5000x256.size a ≤ (i a).val
      ∧ (i a).val < win1_6.index t a * S5000x256.size a + S5000x256.size a := by
  show i ∈ ((View.whole main_v36).slice (win1_6.rect t)).set ↔ _
  rw [View.set_slice_whole, Rect.mem_set_unit]
  exact Iff.rfl

/-- Row i / 5000 is the point whose block holds row i: the ten blocks cover the array. -/
theorem cover1 (i : S50000x256.Idx) :
    ∃ t : Fin cfg1.N, (cfg1.win 6).flush t = true ∧ i ∈ ((cfg1.win 6).blk t).view.set := by
  have hi0 : (i 0).val < 50000 := (i 0).isLt
  have hi1 : (i 1).val < 256 := (i 1).isLt
  have hN : (i 0).val / 5000 < cfg1.N := by rw [show cfg1.N = 10 from N_1]; omega
  obtain ⟨-, -, -, -, -, -, -, -, -, -, -, -, e0, e1⟩ := idx1 ⟨(i 0).val / 5000, hN⟩
  refine ⟨⟨(i 0).val / 5000, hN⟩, flush1_6 _, ?_⟩
  rw [mem_blk1_6]
  intro a
  match a with
  | ⟨0, _⟩ =>
    show win1_6.index ⟨(i 0).val / 5000, hN⟩ (0 : Fin 2) * 5000 ≤ (i 0).val
      ∧ (i 0).val < win1_6.index ⟨(i 0).val / 5000, hN⟩ (0 : Fin 2) * 5000 + 5000
    rw [e0]; show (i 0).val / 5000 * 5000 ≤ (i 0).val ∧ (i 0).val < (i 0).val / 5000 * 5000 + 5000; omega
  | ⟨1, _⟩ =>
    show win1_6.index ⟨(i 0).val / 5000, hN⟩ (1 : Fin 2) * 256 ≤ (i 1).val
      ∧ (i 1).val < win1_6.index ⟨(i 0).val / 5000, hN⟩ (1 : Fin 2) * 256 + 256
    rw [e1]; omega

/-- The result array after the region: the layer clamped at zero of the arrays the region found. -/
theorem final1 (c : Dev nD) :
    (dat1 V c).arrAt 6 cfg1.N = G1 (V c main_v34) (V c main_v24) (V c main_v12) (V c main_arg5) (V c main_arg6) (V c main_v35) :=
  (dat1 V c).arrAt_eq_of_cover 6 _ (fun t _ => flushed1_eq V c t) cover1

end Cert.KernelIdeal.Hand

end
-- ==== Proof.Region2.lean ====
/-
  Region 2 of the program, read as a value.  The grid has ten points; at point t the body sees rows 5000 t … 5000 t + 4999
  of the neighbour sums, of the features and of the factor column, and the weight and bias arrays whole, and stores
  the layer followed by the linear read-out of those rows into the same rows of its result.  A row of the layer depends on
  that row of its row-indexed operands only, and the ten row blocks cover the 50000 rows, so after the region the result
  array holds the layer followed by the linear read-out of the whole arrays as the region found them.
-/
import proofs.«112846_j69286412419426_2_alg».proof.Proof.PKernelIdealFrame
import proofs.«112846_j69286412419426_2_alg».proof.Proof.LibSageLayer
import proofs.«112846_j69286412419426_2_alg».proof.Proof.KDims
import proofs.«112846_j69286412419426_2_alg».proof.Proof.KRows
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

/-- The value the region leaves in its result array, as one function of the arrays it reads. -/
abbrev G2 (y0 : FVec Ideal S50000x256 .f32) (y1 : FVec Ideal S50000x256 .f32) (y2 : FVec Ideal S50000x1 .f32) (y3 : FVec Ideal S256x128 .f32) (y4 : FVec Ideal S256x128 .f32) (y5 : FVec Ideal S1x128 .f32) (y6 : FVec Ideal S128x2 .f32) (y7 : FVec Ideal S1x2 .f32) : FVec Ideal S50000x2 .f32 :=
  Sage.head (Sage.layer y0 y1 y2 y3 y4 y5) y6 y7

/-- Equal arrays give equal values. -/
theorem G2_congr {y0 z0 : FVec Ideal S50000x256 .f32} {y1 z1 : FVec Ideal S50000x256 .f32} {y2 z2 : FVec Ideal S50000x1 .f32} {y3 z3 : FVec Ideal S256x128 .f32} {y4 z4 : FVec Ideal S256x128 .f32} {y5 z5 : FVec Ideal S1x128 .f32} {y6 z6 : FVec Ideal S128x2 .f32} {y7 z7 : FVec Ideal S1x2 .f32} (h0 : y0 = z0) (h1 : y1 = z1) (h2 : y2 = z2) (h3 : y3 = z3) (h4 : y4 = z4) (h5 : y5 = z5) (h6 : y6 = z6) (h7 : y7 = z7) :
    G2 y0 y1 y2 y3 y4 y5 y6 y7 = G2 z0 z1 z2 z3 z4 z5 z6 z7 := by
  subst h0 h1 h2 h3 h4 h5 h6 h7; rfl

/-- The body's stored value is the layer followed by the linear read-out of the blocks it loaded. -/
theorem pay2_eq (x0 : Vec Ideal S5000x256 .f32) (x1 : Vec Ideal S5000x256 .f32) (x2 : Vec Ideal S5000x1 .f32) (x3 : Vec Ideal S256x128 .f32) (x4 : Vec Ideal S256x128 .f32) (x5 : Vec Ideal S1x128 .f32) (x6 : Vec Ideal S128x2 .f32) (x7 : Vec Ideal S1x2 .f32) :
    k2_pay1 x0 x1 x2 x3 x4 x5 x6 x7 = Sage.head (Sage.layer x0 x1 x2 x3 x4 x5) x6 x7 := by
  unfold k2_pay1
  have e := Sage.vec_layer_cast _ std_256_128 (some .fp32) x0 x1 x2 x3 x4 x5 Facts₀.shapeCasts_S5000x256_S5000x256
    Facts₀.shapeCasts_S5000x256_S5000x256 Facts₀.shapeCasts_S5000x1_S5000x1 Facts₀.broadcasts_S5000x1_S5000x256
    Facts₀.shapeCasts_S1x128_S1x128 Facts₀.broadcasts_S1x128_S5000x128
  refine Eq.trans ?_ (Sage.vec_head _ std_128_2 (some .fp32) (Sage.layer x0 x1 x2 x3 x4 x5) x6 x7
    Facts₀.shapeCasts_S1x2_S1x2 Facts₀.broadcasts_S1x2_S5000x2)
  exact congrArg (fun h => addf (matmul dot_S5000x128_S128x2_S5000x2_1_0_0_1_n_n (some .fp32) h x6
    (constant (F := Ideal) S5000x2 .f32 0x00000000#32))
    (broadcastTo S5000x2 (shapeCast S1x2 x7 Facts₀.shapeCasts_S1x2_S1x2) Facts₀.broadcasts_S1x2_S5000x2)) e

/-- The printed index maps, decided over the grid: a row-indexed window's block index at point t is (t, 0), a whole
    window's is (0, 0). -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = t.val ∧ win2_8.index t (1 : Fin 2) = 0 :=
  (by decide +kernel : ∀ t : Fin grid2.N, _)

/-- Window 0's block at point t is rows 5000 t … 5000 t + 4999 of its array. -/
theorem blk2_0 (c : Dev nD) (t : Fin cfg2.N) (ht : t.val < 10) (p : Fin 5000) (k : Fin 256) :
    (iblk2 V c 0 t : Vec Ideal S5000x256 .f32) (ix2 p k)
      = (V c main_v46 : S50000x256.Idx → Elt Ideal .f32) (ix2 (rowOf t.val ht p) k) := by
  obtain ⟨e0, e1, -, -, -, -, -, -, -, -, -, -, -, -, -, -, -, -⟩ := idx2 t
  unfold iblk2
  rw [View.read_apply]
  show V c main_v46 _ = V c main_v46 _
  congr 1
  funext a
  apply Fin.ext
  match a with
  | ⟨0, _⟩ => show win2_0.index t (0 : Fin 2) * 5000 + 1 * p.val = 5000 * t.val + p.val; rw [e0]; omega
  | ⟨1, _⟩ => show win2_0.index t (1 : Fin 2) * 256 + 1 * k.val = k.val; rw [e1]; omega

/-- Window 1's block at point t is rows 5000 t … 5000 t + 4999 of its array. -/
theorem blk2_1 (c : Dev nD) (t : Fin cfg2.N) (ht : t.val < 10) (p : Fin 5000) (k : Fin 256) :
    (iblk2 V c 1 t : Vec Ideal S5000x256 .f32) (ix2 p k)
      = (V c main_v36 : S50000x256.Idx → Elt Ideal .f32) (ix2 (rowOf t.val ht p) k) := by
  obtain ⟨-, -, e0, e1, -, -, -, -, -, -, -, -, -, -, -, -, -, -⟩ := idx2 t
  unfold iblk2
  rw [View.read_apply]
  show V c main_v36 _ = V c main_v36 _
  congr 1
  funext a
  apply Fin.ext
  match a with
  | ⟨0, _⟩ => show win2_1.index t (0 : Fin 2) * 5000 + 1 * p.val = 5000 * t.val + p.val; rw [e0]; omega
  | ⟨1, _⟩ => show win2_1.index t (1 : Fin 2) * 256 + 1 * k.val = k.val; rw [e1]; omega

/-- Window 2's block at point t is rows 5000 t … 5000 t + 4999 of its array. -/
theorem blk2_2 (c : Dev nD) (t : Fin cfg2.N) (ht : t.val < 10) (p : Fin 5000) (u : Fin 1) :
    (iblk2 V c 2 t : Vec Ideal S5000x1 .f32) (ix2 p u)
      = (V c main_v12 : S50000x1.Idx → Elt Ideal .f32) (ix2 (rowOf t.val ht p) u) := by
  obtain ⟨-, -, -, -, e0, e1, -, -, -, -, -, -, -, -, -, -, -, -⟩ := idx2 t
  unfold iblk2
  rw [View.read_apply]
  show V c main_v12 _ = V c main_v12 _
  congr 1
  funext a
  apply Fin.ext
  match a with
  | ⟨0, _⟩ => show win2_2.index t (0 : Fin 2) * 5000 + 1 * p.val = 5000 * t.val + p.val; rw [e0]; omega
  | ⟨1, _⟩ => show win2_2.index t (1 : Fin 2) * 1 + 1 * u.val = u.val; rw [e1]; omega

/-- Window 3's block is its whole array at every point. -/
theorem blk2_3 (c : Dev nD) (t : Fin cfg2.N) :
    (iblk2 V c 3 t : Vec Ideal S256x128 .f32) = (V c main_arg8 : S256x128.Idx → Elt Ideal .f32) := by
  obtain ⟨-, -, -, -, -, -, e0, e1, -, -, -, -, -, -, -, -, -, -⟩ := idx2 t
  funext j
  unfold iblk2
  rw [View.read_apply]
  show V c main_arg8 _ = V c main_arg8 j
  congr 1
  funext a
  apply Fin.ext
  match a with
  | ⟨0, _⟩ => show win2_3.index t (0 : Fin 2) * 256 + 1 * (j 0).val = (j 0).val; rw [e0]; omega
  | ⟨1, _⟩ => show win2_3.index t (1 : Fin 2) * 128 + 1 * (j 1).val = (j 1).val; rw [e1]; omega

/-- Window 4's block is its whole array at every point. -/
theorem blk2_4 (c : Dev nD) (t : Fin cfg2.N) :
    (iblk2 V c 4 t : Vec Ideal S256x128 .f32) = (V c main_arg9 : S256x128.Idx → Elt Ideal .f32) := by
  obtain ⟨-, -, -, -, -, -, -, -, e0, e1, -, -, -, -, -, -, -, -⟩ := idx2 t
  funext j
  unfold iblk2
  rw [View.read_apply]
  show V c main_arg9 _ = V c main_arg9 j
  congr 1
  funext a
  apply Fin.ext
  match a with
  | ⟨0, _⟩ => show win2_4.index t (0 : Fin 2) * 256 + 1 * (j 0).val = (j 0).val; rw [e0]; omega
  | ⟨1, _⟩ => show win2_4.index t (1 : Fin 2) * 128 + 1 * (j 1).val = (j 1).val; rw [e1]; omega

/-- Window 5's block is its whole array at every point. -/
theorem blk2_5 (c : Dev nD) (t : Fin cfg2.N) :
    (iblk2 V c 5 t : Vec Ideal S1x128 .f32) = (V c main_v47 : S1x128.Idx → Elt Ideal .f32) := by
  obtain ⟨-, -, -, -, -, -, -, -, -, -, e0, e1, -, -, -, -, -, -⟩ := idx2 t
  funext j
  unfold iblk2
  rw [View.read_apply]
  show V c main_v47 _ = V c main_v47 j
  congr 1
  funext a
  apply Fin.ext
  match a with
  | ⟨0, _⟩ => show win2_5.index t (0 : Fin 2) * 1 + 1 * (j 0).val = (j 0).val; rw [e0]; omega
  | ⟨1, _⟩ => show win2_5.index t (1 : Fin 2) * 128 + 1 * (j 1).val = (j 1).val; rw [e1]; omega

/-- Window 6's block is its whole array at every point. -/
theorem blk2_6 (c : Dev nD) (t : Fin cfg2.N) :
    (iblk2 V c 6 t : Vec Ideal S128x2 .f32) = (V c main_arg11 : S128x2.Idx → Elt Ideal .f32) := by
  obtain ⟨-, -, -, -, -, -, -, -, -, -, -, -, e0, e1, -, -, -, -⟩ := idx2 t
  funext j
  unfold iblk2
  rw [View.read_apply]
  show V c main_arg11 _ = V c main_arg11 j
  congr 1
  funext a
  apply Fin.ext
  match a with
  | ⟨0, _⟩ => show win2_6.index t (0 : Fin 2) * 128 + 1 * (j 0).val = (j 0).val; rw [e0]; omega
  | ⟨1, _⟩ => show win2_6.index t (1 : Fin 2) * 2 + 1 * (j 1).val = (j 1).val; rw [e1]; omega

/-- Window 7's block is its whole array at every point. -/
theorem blk2_7 (c : Dev nD) (t : Fin cfg2.N) :
    (iblk2 V c 7 t : Vec Ideal S1x2 .f32) = (V c main_v48 : S1x2.Idx → Elt Ideal .f32) := by
  obtain ⟨-, -, -, -, -, -, -, -, -, -, -, -, -, -, e0, e1, -, -⟩ := idx2 t
  funext j
  unfold iblk2
  rw [View.read_apply]
  show V c main_v48 _ = V c main_v48 j
  congr 1
  funext a
  apply Fin.ext
  match a with
  | ⟨0, _⟩ => show win2_7.index t (0 : Fin 2) * 1 + 1 * (j 0).val = (j 0).val; rw [e0]; omega
  | ⟨1, _⟩ => show win2_7.index t (1 : Fin 2) * 2 + 1 * (j 1).val = (j 1).val; rw [e1]; omega

/-- Where entry (p, q) of the result's block at point t sits in the result array. -/
theorem emb2_8 (t : Fin cfg2.N) (ht : t.val < 10) (p : Fin 5000) (q : Fin 2) :
    ((cfg2.win 8).blk t).view.emb (ix2 p q) = (ix2 (rowOf t.val ht p) q : S50000x2.Idx) := by
  obtain ⟨-, -, -, -, -, -, -, -, -, -, -, -, -, -, -, -, e0, e1⟩ := idx2 t
  funext a
  apply Fin.ext
  match a with
  | ⟨0, _⟩ => show win2_8.index t (0 : Fin 2) * 5000 + 1 * p.val = 5000 * t.val + p.val; rw [e0]; omega
  | ⟨1, _⟩ => show win2_8.index t (1 : Fin 2) * 2 + 1 * q.val = q.val; rw [e1]; omega

/-- What point t writes back is block t of the region's value. -/
theorem flushed2_eq (c : Dev nD) (t : Fin cfg2.N) :
    (dat2 V c).flushed 8 t = ((cfg2.win 8).blk t).view.read (Elt Ideal) (G2 (V c main_v46) (V c main_v36) (V c main_v12) (V c main_arg8) (V c main_arg9) (V c main_v47) (V c main_arg11) (V c main_v48)) := by
  have ht : t.val < 10 := lt_of_lt_of_eq t.isLt (show cfg2.N = 10 from N_2)
  show (cfg2.win 8).cut (grid2.coords t) ((dat2 V c).after 8 t) = _
  rw [after2_8]
  unfold out2_8
  rw [View.canon_unit_zero hz]
  simp only [View.ld_unit_zero (S := S5000x256) hz, View.ld_unit_zero (S := S5000x1) hz, View.ld_unit_zero (S := S256x128) hz, View.ld_unit_zero (S := S1x128) hz, View.ld_unit_zero (S := S128x2) hz, View.ld_unit_zero (S := S1x2) hz]
  rw [pay2_eq, blk2_3 V c t, blk2_4 V c t, blk2_5 V c t, blk2_6 V c t, blk2_7 V c t]
  funext j
  obtain ⟨p, q, rfl⟩ : ∃ (p : Fin 5000) (q : Fin 2), j = ix2 p q := ⟨j 0, j 1, eq_ix2 j⟩
  rw [View.read_apply, emb2_8 t ht p q]
  exact Sage.head_rows (rowOf t.val ht) _ _ _ _ (Sage.layer_rows (rowOf t.val ht) _ _ _ _ _ _ _ _ _
    (blk2_0 V c t ht) (blk2_1 V c t ht) (fun p => blk2_2 V c t ht p 0)) p q

/-- An index of the result array is in point t's block iff each coordinate is in the block's range on its axis. -/
theorem mem_blk2_8 (t : Fin cfg2.N) (i : S50000x2.Idx) :
    i ∈ ((cfg2.win 8).blk t).view.set ↔ ∀ a : Fin 2, win2_8.index t a * S5000x2.size a ≤ (i a).val
      ∧ (i a).val < win2_8.index t a * S5000x2.size a + S5000x2.size a := by
  show i ∈ ((View.whole main_v49).slice (win2_8.rect t)).set ↔ _
  rw [View.set_slice_whole, Rect.mem_set_unit]
  exact Iff.rfl

/-- Row i / 5000 is the point whose block holds row i: the ten blocks cover the array. -/
theorem cover2 (i : S50000x2.Idx) :
    ∃ t : Fin cfg2.N, (cfg2.win 8).flush t = true ∧ i ∈ ((cfg2.win 8).blk t).view.set := by
  have hi0 : (i 0).val < 50000 := (i 0).isLt
  have hi1 : (i 1).val < 2 := (i 1).isLt
  have hN : (i 0).val / 5000 < cfg2.N := by rw [show cfg2.N = 10 from N_2]; omega
  obtain ⟨-, -, -, -, -, -, -, -, -, -, -, -, -, -, -, -, e0, e1⟩ := idx2 ⟨(i 0).val / 5000, hN⟩
  refine ⟨⟨(i 0).val / 5000, hN⟩, flush2_8 _, ?_⟩
  rw [mem_blk2_8]
  intro a
  match a with
  | ⟨0, _⟩ =>
    show win2_8.index ⟨(i 0).val / 5000, hN⟩ (0 : Fin 2) * 5000 ≤ (i 0).val
      ∧ (i 0).val < win2_8.index ⟨(i 0).val / 5000, hN⟩ (0 : Fin 2) * 5000 + 5000
    rw [e0]; show (i 0).val / 5000 * 5000 ≤ (i 0).val ∧ (i 0).val < (i 0).val / 5000 * 5000 + 5000; omega
  | ⟨1, _⟩ =>
    show win2_8.index ⟨(i 0).val / 5000, hN⟩ (1 : Fin 2) * 2 ≤ (i 1).val
      ∧ (i 1).val < win2_8.index ⟨(i 0).val / 5000, hN⟩ (1 : Fin 2) * 2 + 2
    rw [e1]; omega

/-- The result array after the region: the layer followed by the linear read-out of the arrays the region found. -/
theorem final2 (c : Dev nD) :
    (dat2 V c).arrAt 8 cfg2.N = G2 (V c main_v46) (V c main_v36) (V c main_v12) (V c main_arg8) (V c main_arg9) (V c main_v47) (V c main_arg11) (V c main_v48) :=
  (dat2 V c).arrAt_eq_of_cover 8 _ (fun t _ => flushed2_eq V c t) cover2

end Cert.KernelIdeal.Hand

end
-- ==== Proof.HostOps.lean ====
/-
  The host side of the program, named.  The graph is a list of 600000 edges given as two rows of node numbers, the
  sources and the destinations.  A matrix of node features is aggregated by gathering, for every edge, the row of its
  source (a negative number counting from the end), and adding the gathered rows into the rows of their destinations;
  the number of edges arriving at each node, at least one, divides the sums into means.  The program multiplies by
  the reciprocals of those counts, held as a column; a bias vector enters a region as a one-row matrix.
-/
import proofs.«112846_j69286412419426_2_alg».proof.Proof.Gen.KernelIdeal
import Idealize.ShloMosaic.PureOps.Ideal

noncomputable section

namespace Cert.KernelIdeal.Hand

open Cert.KernelIdeal Cert.KernelIdeal.Facts₀ Idealize.ShloMosaic

/-- The edge list: row 0 the sources, row 1 the destinations. -/
abbrev Edges : Type := (⟨S2x600000, .i32⟩ : BufTy).Contents (Elt Ideal)
/-- One node number per edge. -/
abbrev PerEdge : Type := (⟨S600000, .i32⟩ : BufTy).Contents (Elt Ideal)
/-- One node number per edge, as a column. -/
abbrev EdgeCol : Type := (⟨S600000x1, .i32⟩ : BufTy).Contents (Elt Ideal)

/-- The source of every edge. -/
def src (E : Edges) : PerEdge :=
  shapeCast S600000 (extractStridedSlice S1x600000 ![0, 0] E slices_S2x600000_S1x600000_0_0) shapeCasts_S1x600000_S600000

/-- The destination of every edge. -/
def dst (E : Edges) : PerEdge :=
  shapeCast S600000 (extractStridedSlice S1x600000 ![1, 0] E slices_S2x600000_S1x600000_1_0) shapeCasts_S1x600000_S600000

/-- The rows to gather: the sources, a negative one counted from the end, as a column. -/
def gatherRows (s : PerEdge) : EdgeCol :=
  broadcastInDim S600000x1 ![0] bcast_S600000_S600000x1_0
    (select (cmpi .slt s (broadcastInDim S600000 ![] bcast_S_S600000 (constantI S_ 32 0#32)))
      (addi s (broadcastInDim S600000 ![] bcast_S_S600000 (constantI S_ 32 50000#32))) s)

/-- The rows to add into: the destinations as a column. -/
def scatterRows (d : PerEdge) : EdgeCol :=
  broadcastInDim S600000x1 ![0] bcast_S600000_S600000x1_0 d

/-- The neighbour sums of a 128-column feature matrix. -/
def agg128 (s d : PerEdge) (h : FVec Ideal S50000x128 .f32) : FVec Ideal S50000x128 .f32 :=
  Host.scatterAdd (F := Ideal) scatter_S50000x128_S600000x1_S600000x128_1_0_0_1
    (broadcastInDim S50000x128 ![] bcast_S_S50000x128 (constant (F := Ideal) S_ .f32 0x00000000#32)) (scatterRows d)
    (Host.gather gather_S50000x128_S600000x1_S600000x128_1_0_n_n_0_1_1128 h (gatherRows s))

/-- The neighbour sums of a 256-column feature matrix. -/
def agg256 (s d : PerEdge) (h : FVec Ideal S50000x256 .f32) : FVec Ideal S50000x256 .f32 :=
  Host.scatterAdd (F := Ideal) scatter_S50000x256_S600000x1_S600000x256_1_0_0_1
    (broadcastInDim S50000x256 ![] bcast_S_S50000x256 (constant (F := Ideal) S_ .f32 0x00000000#32)) (scatterRows d)
    (Host.gather gather_S50000x256_S600000x1_S600000x256_1_0_n_n_0_1_1256 h (gatherRows s))

/-- The number of edges arriving at each node, at least one. -/
def counts (d : PerEdge) : FVec Ideal S50000 .f32 :=
  maximumf
    (Host.scatterAdd (F := Ideal) scatter_S50000_S600000x1_S600000_n_0_0_1
      (broadcastInDim S50000 ![] bcast_S_S50000 (constant (F := Ideal) S_ .f32 0x00000000#32)) (scatterRows d)
      (broadcastInDim S600000 ![] bcast_S_S600000 (constant (F := Ideal) S_ .f32 0x3F800000#32)))
    (broadcastInDim S50000 ![] bcast_S_S50000 (constant (F := Ideal) S_ .f32 0x3F800000#32))

/-- The column of the counts' reciprocals. -/
def invCounts (d : PerEdge) : FVec Ideal S50000x1 .f32 :=
  broadcastInDim S50000x1 ![0] bcast_S50000_S50000x1_0
    (Host.divf (F := Ideal) (broadcastInDim S50000 ![] bcast_S_S50000 (constant (F := Ideal) S_ .f32 0x3F800000#32)) (counts d))

/-- A 256-entry bias vector as a one-row matrix. -/
def row256 (b : FVec Ideal S256 .f32) : FVec Ideal S1x256 .f32 := shapeCast S1x256 b shapeCasts_S256_S1x256
/-- A 128-entry bias vector as a one-row matrix. -/
def row128 (b : FVec Ideal S128 .f32) : FVec Ideal S1x128 .f32 := shapeCast S1x128 b shapeCasts_S128_S1x128
/-- A 2-entry bias vector as a one-row matrix. -/
def row2 (b : FVec Ideal S2 .f32) : FVec Ideal S1x2 .f32 := shapeCast S1x2 b shapeCasts_S2_S1x2

end Cert.KernelIdeal.Hand

end
-- ==== Proof.HostStretch.lean ====
/-
  What each stretch of host operations leaves in the buffers the regions read, from any contents W of the buffers
  before it: the operations' composed term at the buffers it writes, W itself at the buffers it does not touch.
-/
import proofs.«112846_j69286412419426_2_alg».proof.Proof.PKernelIdealLaunch
import proofs.«112846_j69286412419426_2_alg».proof.Proof.HostOps
import Idealize.ShloMosaic.Lib.StableHlo.Run

set_option maxHeartbeats 4000000

noncomputable section

namespace Cert.KernelIdeal.Hand

open Cert.KernelIdeal Cert.KernelIdeal.Gen Idealize.ShloMosaic Idealize.ShloMosaic.TcCoe Idealize.ShloMosaic.StableHlo

variable (W : Valuation τ sig (Elt Ideal))

/-! ## Before region 0 -/

theorem h0_v1 : StableHlo.after (hostOps0 (F := Ideal)) W (Proc.devRef .tc main_v1) = src (W (Proc.devRef .tc main_arg1)) := by
  after_results_simp <;> rfl
theorem h0_v3 : StableHlo.after (hostOps0 (F := Ideal)) W (Proc.devRef .tc main_v3) = dst (W (Proc.devRef .tc main_arg1)) := by
  after_results_simp <;> rfl
theorem h0_v12 : StableHlo.after (hostOps0 (F := Ideal)) W (Proc.devRef .tc main_v12) = invCounts (dst (W (Proc.devRef .tc main_arg1))) := by
  after_results_simp <;> rfl
theorem h0_v22 : StableHlo.after (hostOps0 (F := Ideal)) W (Proc.devRef .tc main_v22) = agg128 (src (W (Proc.devRef .tc main_arg1))) (dst (W (Proc.devRef .tc main_arg1))) (W (Proc.devRef .tc main_arg0)) := by
  after_results_simp <;> rfl
theorem h0_v23 : StableHlo.after (hostOps0 (F := Ideal)) W (Proc.devRef .tc main_v23) = row256 (W (Proc.devRef .tc main_arg4)) := by
  after_results_simp <;> rfl
theorem h0_arg0 : StableHlo.after (hostOps0 (F := Ideal)) W (Proc.devRef .tc main_arg0) = W (Proc.devRef .tc main_arg0) := by
  after_results_simp <;> rfl
theorem h0_arg2 : StableHlo.after (hostOps0 (F := Ideal)) W (Proc.devRef .tc main_arg2) = W (Proc.devRef .tc main_arg2) := by
  after_results_simp <;> rfl
theorem h0_arg3 : StableHlo.after (hostOps0 (F := Ideal)) W (Proc.devRef .tc main_arg3) = W (Proc.devRef .tc main_arg3) := by
  after_results_simp <;> rfl
theorem h0_arg5 : StableHlo.after (hostOps0 (F := Ideal)) W (Proc.devRef .tc main_arg5) = W (Proc.devRef .tc main_arg5) := by
  after_results_simp <;> rfl
theorem h0_arg6 : StableHlo.after (hostOps0 (F := Ideal)) W (Proc.devRef .tc main_arg6) = W (Proc.devRef .tc main_arg6) := by
  after_results_simp <;> rfl
theorem h0_arg7 : StableHlo.after (hostOps0 (F := Ideal)) W (Proc.devRef .tc main_arg7) = W (Proc.devRef .tc main_arg7) := by
  after_results_simp <;> rfl
theorem h0_arg8 : StableHlo.after (hostOps0 (F := Ideal)) W (Proc.devRef .tc main_arg8) = W (Proc.devRef .tc main_arg8) := by
  after_results_simp <;> rfl
theorem h0_arg9 : StableHlo.after (hostOps0 (F := Ideal)) W (Proc.devRef .tc main_arg9) = W (Proc.devRef .tc main_arg9) := by
  after_results_simp <;> rfl
theorem h0_arg10 : StableHlo.after (hostOps0 (F := Ideal)) W (Proc.devRef .tc main_arg10) = W (Proc.devRef .tc main_arg10) := by
  after_results_simp <;> rfl
theorem h0_arg11 : StableHlo.after (hostOps0 (F := Ideal)) W (Proc.devRef .tc main_arg11) = W (Proc.devRef .tc main_arg11) := by
  after_results_simp <;> rfl
theorem h0_arg12 : StableHlo.after (hostOps0 (F := Ideal)) W (Proc.devRef .tc main_arg12) = W (Proc.devRef .tc main_arg12) := by
  after_results_simp <;> rfl

/-! ## Between regions 0 and 1 -/

theorem h1_v34 : StableHlo.after (hostOps1 (F := Ideal)) W (Proc.devRef .tc main_v34) = agg256 (W (Proc.devRef .tc main_v1)) (W (Proc.devRef .tc main_v3)) (W (Proc.devRef .tc main_v24)) := by
  after_results_simp <;> rfl
theorem h1_v35 : StableHlo.after (hostOps1 (F := Ideal)) W (Proc.devRef .tc main_v35) = row256 (W (Proc.devRef .tc main_arg7)) := by
  after_results_simp <;> rfl
theorem h1_v1 : StableHlo.after (hostOps1 (F := Ideal)) W (Proc.devRef .tc main_v1) = W (Proc.devRef .tc main_v1) := by
  after_results_simp <;> rfl
theorem h1_v3 : StableHlo.after (hostOps1 (F := Ideal)) W (Proc.devRef .tc main_v3) = W (Proc.devRef .tc main_v3) := by
  after_results_simp <;> rfl
theorem h1_v12 : StableHlo.after (hostOps1 (F := Ideal)) W (Proc.devRef .tc main_v12) = W (Proc.devRef .tc main_v12) := by
  after_results_simp <;> rfl
theorem h1_v24 : StableHlo.after (hostOps1 (F := Ideal)) W (Proc.devRef .tc main_v24) = W (Proc.devRef .tc main_v24) := by
  after_results_simp <;> rfl
theorem h1_arg5 : StableHlo.after (hostOps1 (F := Ideal)) W (Proc.devRef .tc main_arg5) = W (Proc.devRef .tc main_arg5) := by
  after_results_simp <;> rfl
theorem h1_arg6 : StableHlo.after (hostOps1 (F := Ideal)) W (Proc.devRef .tc main_arg6) = W (Proc.devRef .tc main_arg6) := by
  after_results_simp <;> rfl
theorem h1_arg8 : StableHlo.after (hostOps1 (F := Ideal)) W (Proc.devRef .tc main_arg8) = W (Proc.devRef .tc main_arg8) := by
  after_results_simp <;> rfl
theorem h1_arg9 : StableHlo.after (hostOps1 (F := Ideal)) W (Proc.devRef .tc main_arg9) = W (Proc.devRef .tc main_arg9) := by
  after_results_simp <;> rfl
theorem h1_arg10 : StableHlo.after (hostOps1 (F := Ideal)) W (Proc.devRef .tc main_arg10) = W (Proc.devRef .tc main_arg10) := by
  after_results_simp <;> rfl
theorem h1_arg11 : StableHlo.after (hostOps1 (F := Ideal)) W (Proc.devRef .tc main_arg11) = W (Proc.devRef .tc main_arg11) := by
  after_results_simp <;> rfl
theorem h1_arg12 : StableHlo.after (hostOps1 (F := Ideal)) W (Proc.devRef .tc main_arg12) = W (Proc.devRef .tc main_arg12) := by
  after_results_simp <;> rfl

/-! ## Between regions 1 and 2 -/

theorem h2_v46 : StableHlo.after (hostOps2 (F := Ideal)) W (Proc.devRef .tc main_v46) = agg256 (W (Proc.devRef .tc main_v1)) (W (Proc.devRef .tc main_v3)) (W (Proc.devRef .tc main_v36)) := by
  after_results_simp <;> rfl
theorem h2_v47 : StableHlo.after (hostOps2 (F := Ideal)) W (Proc.devRef .tc main_v47) = row128 (W (Proc.devRef .tc main_arg10)) := by
  after_results_simp <;> rfl
theorem h2_v48 : StableHlo.after (hostOps2 (F := Ideal)) W (Proc.devRef .tc main_v48) = row2 (W (Proc.devRef .tc main_arg12)) := by
  after_results_simp <;> rfl
theorem h2_v36 : StableHlo.after (hostOps2 (F := Ideal)) W (Proc.devRef .tc main_v36) = W (Proc.devRef .tc main_v36) := by
  after_results_simp <;> rfl
theorem h2_v12 : StableHlo.after (hostOps2 (F := Ideal)) W (Proc.devRef .tc main_v12) = W (Proc.devRef .tc main_v12) := by
  after_results_simp <;> rfl
theorem h2_arg8 : StableHlo.after (hostOps2 (F := Ideal)) W (Proc.devRef .tc main_arg8) = W (Proc.devRef .tc main_arg8) := by
  after_results_simp <;> rfl
theorem h2_arg9 : StableHlo.after (hostOps2 (F := Ideal)) W (Proc.devRef .tc main_arg9) = W (Proc.devRef .tc main_arg9) := by
  after_results_simp <;> rfl
theorem h2_arg11 : StableHlo.after (hostOps2 (F := Ideal)) W (Proc.devRef .tc main_arg11) = W (Proc.devRef .tc main_arg11) := by
  after_results_simp <;> rfl

end Cert.KernelIdeal.Hand

end
-- ==== Proof.Spec.lean ====
/-
  The network as one function of the program's thirteen arguments: three mean-aggregating layers, the first two clamped
  at zero, and a linear read-out of the third.  Each layer reads the features the layer before it produced, their
  neighbour sums along the same edges, and the same column of reciprocal counts.
-/
import proofs.«112846_j69286412419426_2_alg».proof.Proof.HostOps
import proofs.«112846_j69286412419426_2_alg».proof.Proof.LibSageLayer

noncomputable section

namespace Cert.KernelIdeal.Hand

open Cert.KernelIdeal Idealize.ShloMosaic

/-- The first layer's features. -/
def H1 (x0 : FVec Ideal S50000x128 .f32) (x1 : Edges) (x2 : FVec Ideal S128x256 .f32) (x3 : FVec Ideal S128x256 .f32) (x4 : FVec Ideal S256 .f32) : FVec Ideal S50000x256 .f32 :=
  Sage.relu (Sage.layer (agg128 (src x1) (dst x1) x0) x0 (invCounts (dst x1)) x2 x3 (row256 x4))

/-- The second layer's features. -/
def H2 (x0 : FVec Ideal S50000x128 .f32) (x1 : Edges) (x2 : FVec Ideal S128x256 .f32) (x3 : FVec Ideal S128x256 .f32) (x4 : FVec Ideal S256 .f32) (x5 : FVec Ideal S256x256 .f32) (x6 : FVec Ideal S256x256 .f32) (x7 : FVec Ideal S256 .f32) : FVec Ideal S50000x256 .f32 :=
  Sage.relu (Sage.layer (agg256 (src x1) (dst x1) (H1 x0 x1 x2 x3 x4)) (H1 x0 x1 x2 x3 x4) (invCounts (dst x1)) x5 x6 (row256 x7))

/-- The network's result: the third layer read out. -/
def OUT (x0 : FVec Ideal S50000x128 .f32) (x1 : Edges) (x2 : FVec Ideal S128x256 .f32) (x3 : FVec Ideal S128x256 .f32) (x4 : FVec Ideal S256 .f32) (x5 : FVec Ideal S256x256 .f32) (x6 : FVec Ideal S256x256 .f32) (x7 : FVec Ideal S256 .f32) (x8 : FVec Ideal S256x128 .f32) (x9 : FVec Ideal S256x128 .f32) (x10 : FVec Ideal S128 .f32) (x11 : FVec Ideal S128x2 .f32) (x12 : FVec Ideal S2 .f32) : FVec Ideal S50000x2 .f32 :=
  Sage.head (Sage.layer (agg256 (src x1) (dst x1) (H2 x0 x1 x2 x3 x4 x5 x6 x7)) (H2 x0 x1 x2 x3 x4 x5 x6 x7) (invCounts (dst x1)) x8 x9 (row128 x10)) x11 (row2 x12)

end Cert.KernelIdeal.Hand

end
-- ==== Proof.KValue.lean ====
/-
  The contents of the buffers the regions read, boundary by boundary, as terms of the argument arrays; at the end the
  result array holds the network's value.  Before region 0 the host has computed the edge endpoints, the column of
  reciprocal counts, the neighbour sums of the input features and the first bias row; region 0 leaves the first layer's
  features; the host aggregates them and region 1 leaves the second layer's; the host aggregates those and region 2
  leaves the result.  Nothing ever writes the endpoints, the reciprocal counts or an argument again.
-/
import proofs.«112846_j69286412419426_2_alg».proof.Proof.Region0
import proofs.«112846_j69286412419426_2_alg».proof.Proof.Region1
import proofs.«112846_j69286412419426_2_alg».proof.Proof.Region2
import proofs.«112846_j69286412419426_2_alg».proof.Proof.HostStretch
import proofs.«112846_j69286412419426_2_alg».proof.Proof.Spec

noncomputable section

open Idealize.ShloMosaic Idealize.ShloMosaic.TcCoe Idealize.SL.Sem
open Idealize.ShloMosaic.Pipeline (Dat)

namespace Cert.KernelIdeal.Hand

open Cert.KernelIdeal Cert.KernelIdeal.Gen

variable (m : (ℓ : Loc nD τ sig) → Buf (Elt Ideal) ℓ) (ρ : Dev nD → PrngReg) (c : Dev nD)

/-- Region 0 leaves every buffer but its result array as it found it: an array it only reads is never written back,
    and a buffer that is none of its arrays is not touched. -/
theorem W2_keep (b : Ref sig .tc) (hb : b ≠ main_v24) :
    W2 m ρ c (Proc.devRef .tc b) = W1 m ρ c (Proc.devRef .tc b) := by
  by_cases h : ∀ w, Pipeline.arrRef spec0 w ≠ b
  · exact W2_of_ne m ρ c b h
  · obtain ⟨w, hw⟩ := not_forall.mp h
    obtain rfl := not_not.mp hw
    match w with
    | ⟨0, _⟩ => exact (W2_arr m ρ c 0).trans (((dat0 (V1 m ρ) c).arrAt_in 0 rfl _).trans (A_eq0 (V1 m ρ) c 0))
    | ⟨1, _⟩ => exact (W2_arr m ρ c 1).trans (((dat0 (V1 m ρ) c).arrAt_in 1 rfl _).trans (A_eq0 (V1 m ρ) c 1))
    | ⟨2, _⟩ => exact (W2_arr m ρ c 2).trans (((dat0 (V1 m ρ) c).arrAt_in 2 rfl _).trans (A_eq0 (V1 m ρ) c 2))
    | ⟨3, _⟩ => exact (W2_arr m ρ c 3).trans (((dat0 (V1 m ρ) c).arrAt_in 3 rfl _).trans (A_eq0 (V1 m ρ) c 3))
    | ⟨4, _⟩ => exact (W2_arr m ρ c 4).trans (((dat0 (V1 m ρ) c).arrAt_in 4 rfl _).trans (A_eq0 (V1 m ρ) c 4))
    | ⟨5, _⟩ => exact (W2_arr m ρ c 5).trans (((dat0 (V1 m ρ) c).arrAt_in 5 rfl _).trans (A_eq0 (V1 m ρ) c 5))
    | ⟨6, _⟩ => exact absurd rfl hb
    | ⟨_ + 7, h⟩ => exact absurd h (Nat.not_lt.2 (Nat.le_add_left _ _))

/-- Region 1 leaves every buffer but its result array as it found it: an array it only reads is never written back,
    and a buffer that is none of its arrays is not touched. -/
theorem W4_keep (b : Ref sig .tc) (hb : b ≠ main_v36) :
    W4 m ρ c (Proc.devRef .tc b) = W3 m ρ c (Proc.devRef .tc b) := by
  by_cases h : ∀ w, Pipeline.arrRef spec1 w ≠ b
  · exact W4_of_ne m ρ c b h
  · obtain ⟨w, hw⟩ := not_forall.mp h
    obtain rfl := not_not.mp hw
    match w with
    | ⟨0, _⟩ => exact (W4_arr m ρ c 0).trans (((dat1 (V3 m ρ) c).arrAt_in 0 rfl _).trans (A_eq1 (V3 m ρ) c 0))
    | ⟨1, _⟩ => exact (W4_arr m ρ c 1).trans (((dat1 (V3 m ρ) c).arrAt_in 1 rfl _).trans (A_eq1 (V3 m ρ) c 1))
    | ⟨2, _⟩ => exact (W4_arr m ρ c 2).trans (((dat1 (V3 m ρ) c).arrAt_in 2 rfl _).trans (A_eq1 (V3 m ρ) c 2))
    | ⟨3, _⟩ => exact (W4_arr m ρ c 3).trans (((dat1 (V3 m ρ) c).arrAt_in 3 rfl _).trans (A_eq1 (V3 m ρ) c 3))
    | ⟨4, _⟩ => exact (W4_arr m ρ c 4).trans (((dat1 (V3 m ρ) c).arrAt_in 4 rfl _).trans (A_eq1 (V3 m ρ) c 4))
    | ⟨5, _⟩ => exact (W4_arr m ρ c 5).trans (((dat1 (V3 m ρ) c).arrAt_in 5 rfl _).trans (A_eq1 (V3 m ρ) c 5))
    | ⟨6, _⟩ => exact absurd rfl hb
    | ⟨_ + 7, h⟩ => exact absurd h (Nat.not_lt.2 (Nat.le_add_left _ _))

/-! ## Before region 0 -/

theorem W1_v1 : W1 m ρ c (Proc.devRef .tc main_v1) = (src (m ((c.tc : Thread nD τ).loc main_arg1))) := h0_v1 (W0 m ρ c)
theorem W1_v3 : W1 m ρ c (Proc.devRef .tc main_v3) = (dst (m ((c.tc : Thread nD τ).loc main_arg1))) := h0_v3 (W0 m ρ c)
theorem W1_v12 : W1 m ρ c (Proc.devRef .tc main_v12) = (invCounts (dst (m ((c.tc : Thread nD τ).loc main_arg1)))) := h0_v12 (W0 m ρ c)
theorem W1_v22 : W1 m ρ c (Proc.devRef .tc main_v22) = (agg128 (src (m ((c.tc : Thread nD τ).loc main_arg1))) (dst (m ((c.tc : Thread nD τ).loc main_arg1))) (m ((c.tc : Thread nD τ).loc main_arg0))) := h0_v22 (W0 m ρ c)
theorem W1_v23 : W1 m ρ c (Proc.devRef .tc main_v23) = (row256 (m ((c.tc : Thread nD τ).loc main_arg4))) := h0_v23 (W0 m ρ c)
theorem W1_arg0 : W1 m ρ c (Proc.devRef .tc main_arg0) = (m ((c.tc : Thread nD τ).loc main_arg0)) := h0_arg0 (W0 m ρ c)
theorem W1_arg2 : W1 m ρ c (Proc.devRef .tc main_arg2) = (m ((c.tc : Thread nD τ).loc main_arg2)) := h0_arg2 (W0 m ρ c)
theorem W1_arg3 : W1 m ρ c (Proc.devRef .tc main_arg3) = (m ((c.tc : Thread nD τ).loc main_arg3)) := h0_arg3 (W0 m ρ c)
theorem W1_arg5 : W1 m ρ c (Proc.devRef .tc main_arg5) = (m ((c.tc : Thread nD τ).loc main_arg5)) := h0_arg5 (W0 m ρ c)
theorem W1_arg6 : W1 m ρ c (Proc.devRef .tc main_arg6) = (m ((c.tc : Thread nD τ).loc main_arg6)) := h0_arg6 (W0 m ρ c)
theorem W1_arg7 : W1 m ρ c (Proc.devRef .tc main_arg7) = (m ((c.tc : Thread nD τ).loc main_arg7)) := h0_arg7 (W0 m ρ c)
theorem W1_arg8 : W1 m ρ c (Proc.devRef .tc main_arg8) = (m ((c.tc : Thread nD τ).loc main_arg8)) := h0_arg8 (W0 m ρ c)
theorem W1_arg9 : W1 m ρ c (Proc.devRef .tc main_arg9) = (m ((c.tc : Thread nD τ).loc main_arg9)) := h0_arg9 (W0 m ρ c)
theorem W1_arg10 : W1 m ρ c (Proc.devRef .tc main_arg10) = (m ((c.tc : Thread nD τ).loc main_arg10)) := h0_arg10 (W0 m ρ c)
theorem W1_arg11 : W1 m ρ c (Proc.devRef .tc main_arg11) = (m ((c.tc : Thread nD τ).loc main_arg11)) := h0_arg11 (W0 m ρ c)
theorem W1_arg12 : W1 m ρ c (Proc.devRef .tc main_arg12) = (m ((c.tc : Thread nD τ).loc main_arg12)) := h0_arg12 (W0 m ρ c)

/-! ## After region 0 -/

theorem W2_v24 : W2 m ρ c (Proc.devRef .tc main_v24) = (H1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) :=
  (W2_arr m ρ c 6).trans ((final0 (V1 m ρ) c).trans
    (G0_congr (W1_v22 m ρ c) (W1_arg0 m ρ c) (W1_v12 m ρ c) (W1_arg2 m ρ c) (W1_arg3 m ρ c) (W1_v23 m ρ c)))
theorem W2_v1 : W2 m ρ c (Proc.devRef .tc main_v1) = (src (m ((c.tc : Thread nD τ).loc main_arg1))) := (W2_keep m ρ c main_v1 (by decide)).trans (W1_v1 m ρ c)
theorem W2_v3 : W2 m ρ c (Proc.devRef .tc main_v3) = (dst (m ((c.tc : Thread nD τ).loc main_arg1))) := (W2_keep m ρ c main_v3 (by decide)).trans (W1_v3 m ρ c)
theorem W2_v12 : W2 m ρ c (Proc.devRef .tc main_v12) = (invCounts (dst (m ((c.tc : Thread nD τ).loc main_arg1)))) := (W2_keep m ρ c main_v12 (by decide)).trans (W1_v12 m ρ c)
theorem W2_arg5 : W2 m ρ c (Proc.devRef .tc main_arg5) = (m ((c.tc : Thread nD τ).loc main_arg5)) := (W2_keep m ρ c main_arg5 (by decide)).trans (W1_arg5 m ρ c)
theorem W2_arg6 : W2 m ρ c (Proc.devRef .tc main_arg6) = (m ((c.tc : Thread nD τ).loc main_arg6)) := (W2_keep m ρ c main_arg6 (by decide)).trans (W1_arg6 m ρ c)
theorem W2_arg7 : W2 m ρ c (Proc.devRef .tc main_arg7) = (m ((c.tc : Thread nD τ).loc main_arg7)) := (W2_keep m ρ c main_arg7 (by decide)).trans (W1_arg7 m ρ c)
theorem W2_arg8 : W2 m ρ c (Proc.devRef .tc main_arg8) = (m ((c.tc : Thread nD τ).loc main_arg8)) := (W2_keep m ρ c main_arg8 (by decide)).trans (W1_arg8 m ρ c)
theorem W2_arg9 : W2 m ρ c (Proc.devRef .tc main_arg9) = (m ((c.tc : Thread nD τ).loc main_arg9)) := (W2_keep m ρ c main_arg9 (by decide)).trans (W1_arg9 m ρ c)
theorem W2_arg10 : W2 m ρ c (Proc.devRef .tc main_arg10) = (m ((c.tc : Thread nD τ).loc main_arg10)) := (W2_keep m ρ c main_arg10 (by decide)).trans (W1_arg10 m ρ c)
theorem W2_arg11 : W2 m ρ c (Proc.devRef .tc main_arg11) = (m ((c.tc : Thread nD τ).loc main_arg11)) := (W2_keep m ρ c main_arg11 (by decide)).trans (W1_arg11 m ρ c)
theorem W2_arg12 : W2 m ρ c (Proc.devRef .tc main_arg12) = (m ((c.tc : Thread nD τ).loc main_arg12)) := (W2_keep m ρ c main_arg12 (by decide)).trans (W1_arg12 m ρ c)

/-! ## Before region 1 -/

theorem W3_v34 : W3 m ρ c (Proc.devRef .tc main_v34) = (agg256 (src (m ((c.tc : Thread nD τ).loc main_arg1))) (dst (m ((c.tc : Thread nD τ).loc main_arg1))) (H1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))) :=
  (h1_v34 (W2 m ρ c)).trans (by rw [W2_v1 m ρ c, W2_v3 m ρ c, W2_v24 m ρ c])
theorem W3_v35 : W3 m ρ c (Proc.devRef .tc main_v35) = (row256 (m ((c.tc : Thread nD τ).loc main_arg7))) :=
  (h1_v35 (W2 m ρ c)).trans (by rw [W2_arg7 m ρ c])
theorem W3_v1 : W3 m ρ c (Proc.devRef .tc main_v1) = (src (m ((c.tc : Thread nD τ).loc main_arg1))) := (h1_v1 (W2 m ρ c)).trans (W2_v1 m ρ c)
theorem W3_v3 : W3 m ρ c (Proc.devRef .tc main_v3) = (dst (m ((c.tc : Thread nD τ).loc main_arg1))) := (h1_v3 (W2 m ρ c)).trans (W2_v3 m ρ c)
theorem W3_v12 : W3 m ρ c (Proc.devRef .tc main_v12) = (invCounts (dst (m ((c.tc : Thread nD τ).loc main_arg1)))) := (h1_v12 (W2 m ρ c)).trans (W2_v12 m ρ c)
theorem W3_v24 : W3 m ρ c (Proc.devRef .tc main_v24) = (H1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) := (h1_v24 (W2 m ρ c)).trans (W2_v24 m ρ c)
theorem W3_arg5 : W3 m ρ c (Proc.devRef .tc main_arg5) = (m ((c.tc : Thread nD τ).loc main_arg5)) := (h1_arg5 (W2 m ρ c)).trans (W2_arg5 m ρ c)
theorem W3_arg6 : W3 m ρ c (Proc.devRef .tc main_arg6) = (m ((c.tc : Thread nD τ).loc main_arg6)) := (h1_arg6 (W2 m ρ c)).trans (W2_arg6 m ρ c)
theorem W3_arg8 : W3 m ρ c (Proc.devRef .tc main_arg8) = (m ((c.tc : Thread nD τ).loc main_arg8)) := (h1_arg8 (W2 m ρ c)).trans (W2_arg8 m ρ c)
theorem W3_arg9 : W3 m ρ c (Proc.devRef .tc main_arg9) = (m ((c.tc : Thread nD τ).loc main_arg9)) := (h1_arg9 (W2 m ρ c)).trans (W2_arg9 m ρ c)
theorem W3_arg10 : W3 m ρ c (Proc.devRef .tc main_arg10) = (m ((c.tc : Thread nD τ).loc main_arg10)) := (h1_arg10 (W2 m ρ c)).trans (W2_arg10 m ρ c)
theorem W3_arg11 : W3 m ρ c (Proc.devRef .tc main_arg11) = (m ((c.tc : Thread nD τ).loc main_arg11)) := (h1_arg11 (W2 m ρ c)).trans (W2_arg11 m ρ c)
theorem W3_arg12 : W3 m ρ c (Proc.devRef .tc main_arg12) = (m ((c.tc : Thread nD τ).loc main_arg12)) := (h1_arg12 (W2 m ρ c)).trans (W2_arg12 m ρ c)

/-! ## After region 1 -/

theorem W4_v36 : W4 m ρ c (Proc.devRef .tc main_v36) = (H2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) :=
  (W4_arr m ρ c 6).trans ((final1 (V3 m ρ) c).trans
    (G1_congr (W3_v34 m ρ c) (W3_v24 m ρ c) (W3_v12 m ρ c) (W3_arg5 m ρ c) (W3_arg6 m ρ c) (W3_v35 m ρ c)))
theorem W4_v1 : W4 m ρ c (Proc.devRef .tc main_v1) = (src (m ((c.tc : Thread nD τ).loc main_arg1))) := (W4_keep m ρ c main_v1 (by decide)).trans (W3_v1 m ρ c)
theorem W4_v3 : W4 m ρ c (Proc.devRef .tc main_v3) = (dst (m ((c.tc : Thread nD τ).loc main_arg1))) := (W4_keep m ρ c main_v3 (by decide)).trans (W3_v3 m ρ c)
theorem W4_v12 : W4 m ρ c (Proc.devRef .tc main_v12) = (invCounts (dst (m ((c.tc : Thread nD τ).loc main_arg1)))) := (W4_keep m ρ c main_v12 (by decide)).trans (W3_v12 m ρ c)
theorem W4_arg8 : W4 m ρ c (Proc.devRef .tc main_arg8) = (m ((c.tc : Thread nD τ).loc main_arg8)) := (W4_keep m ρ c main_arg8 (by decide)).trans (W3_arg8 m ρ c)
theorem W4_arg9 : W4 m ρ c (Proc.devRef .tc main_arg9) = (m ((c.tc : Thread nD τ).loc main_arg9)) := (W4_keep m ρ c main_arg9 (by decide)).trans (W3_arg9 m ρ c)
theorem W4_arg10 : W4 m ρ c (Proc.devRef .tc main_arg10) = (m ((c.tc : Thread nD τ).loc main_arg10)) := (W4_keep m ρ c main_arg10 (by decide)).trans (W3_arg10 m ρ c)
theorem W4_arg11 : W4 m ρ c (Proc.devRef .tc main_arg11) = (m ((c.tc : Thread nD τ).loc main_arg11)) := (W4_keep m ρ c main_arg11 (by decide)).trans (W3_arg11 m ρ c)
theorem W4_arg12 : W4 m ρ c (Proc.devRef .tc main_arg12) = (m ((c.tc : Thread nD τ).loc main_arg12)) := (W4_keep m ρ c main_arg12 (by decide)).trans (W3_arg12 m ρ c)

/-! ## Before region 2 -/

theorem W5_v46 : W5 m ρ c (Proc.devRef .tc main_v46) = (agg256 (src (m ((c.tc : Thread nD τ).loc main_arg1))) (dst (m ((c.tc : Thread nD τ).loc main_arg1))) (H2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)))) :=
  (h2_v46 (W4 m ρ c)).trans (by rw [W4_v1 m ρ c, W4_v3 m ρ c, W4_v36 m ρ c])
theorem W5_v47 : W5 m ρ c (Proc.devRef .tc main_v47) = (row128 (m ((c.tc : Thread nD τ).loc main_arg10))) := (h2_v47 (W4 m ρ c)).trans (by rw [W4_arg10 m ρ c])
theorem W5_v48 : W5 m ρ c (Proc.devRef .tc main_v48) = (row2 (m ((c.tc : Thread nD τ).loc main_arg12))) := (h2_v48 (W4 m ρ c)).trans (by rw [W4_arg12 m ρ c])
theorem W5_v36 : W5 m ρ c (Proc.devRef .tc main_v36) = (H2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) := (h2_v36 (W4 m ρ c)).trans (W4_v36 m ρ c)
theorem W5_v12 : W5 m ρ c (Proc.devRef .tc main_v12) = (invCounts (dst (m ((c.tc : Thread nD τ).loc main_arg1)))) := (h2_v12 (W4 m ρ c)).trans (W4_v12 m ρ c)
theorem W5_arg8 : W5 m ρ c (Proc.devRef .tc main_arg8) = (m ((c.tc : Thread nD τ).loc main_arg8)) := (h2_arg8 (W4 m ρ c)).trans (W4_arg8 m ρ c)
theorem W5_arg9 : W5 m ρ c (Proc.devRef .tc main_arg9) = (m ((c.tc : Thread nD τ).loc main_arg9)) := (h2_arg9 (W4 m ρ c)).trans (W4_arg9 m ρ c)
theorem W5_arg11 : W5 m ρ c (Proc.devRef .tc main_arg11) = (m ((c.tc : Thread nD τ).loc main_arg11)) := (h2_arg11 (W4 m ρ c)).trans (W4_arg11 m ρ c)

/-! ## After region 2 -/

/-- The result array at the end holds the network's value of the arguments. -/
theorem W6_v49 : W6 m ρ c (Proc.devRef .tc main_v49) = (OUT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))) :=
  (W6_arr m ρ c 8).trans ((final2 (V5 m ρ) c).trans
    (G2_congr (W5_v46 m ρ c) (W5_v36 m ρ c) (W5_v12 m ρ c) (W5_arg8 m ρ c) (W5_arg9 m ρ c) (W5_v47 m ρ c) (W5_arg11 m ρ c) (W5_v48 m ρ c)))

end Cert.KernelIdeal.Hand

end
-- ==== Proof.RDims.lean ====
/-
  The four matrix products of the program contract the left operand's columns with the right operand's rows and have
  no batch axis: the facts the entry-by-entry readings of a product ask for, read off the printed dimension records.
-/
import proofs.«112846_j69286412419426_2_alg».proof.Proof.Gen.ReferenceIdeal
import proofs.«112846_j69286412419426_2_alg».proof.Proof.LibSageLayer

namespace Cert.ReferenceIdeal.Hand

open Cert.ReferenceIdeal Idealize.ShloMosaic

/-- The [50000, 128] by [128, 256] product contracts the left columns with the right rows. -/
theorem std_128_256 : Sage.Std (a := 50000) (K := 128) (b := 256) dot_S50000x128_S128x256_S50000x256_1_0_0_1_n_n where
  hr := rfl
  hs := rfl
  hl0 := fun i q => by
    unfold DotDims.lhsIdx
    rw [dif_neg (show ¬(0 : Fin S50000x128.rank) ∈ dot_S50000x128_S128x256_S50000x256_1_0_0_1_n_n.lhsBatch by decide),
      dif_pos (show (0 : Fin S50000x128.rank) ∈ dot_S50000x128_S128x256_S50000x256_1_0_0_1_n_n.lhsNonContracting by decide)]
    rfl
  hl1 := fun i q => dot_S50000x128_S128x256_S50000x256_1_0_0_1_n_n.lhsIdx_val_of_single rfl i q
  hr0 := fun i q => dot_S50000x128_S128x256_S50000x256_1_0_0_1_n_n.rhsIdx_val_of_single rfl i q
  hr1 := fun i q => by
    unfold DotDims.rhsIdx
    rw [dif_neg (show ¬(1 : Fin S128x256.rank) ∈ dot_S50000x128_S128x256_S50000x256_1_0_0_1_n_n.rhsBatch by decide),
      dif_pos (show (1 : Fin S128x256.rank) ∈ dot_S50000x128_S128x256_S50000x256_1_0_0_1_n_n.rhsNonContracting by decide)]
    rfl

/-- The [50000, 256] by [256, 256] product contracts the left columns with the right rows. -/
theorem std_256_256 : Sage.Std (a := 50000) (K := 256) (b := 256) dot_S50000x256_S256x256_S50000x256_1_0_0_1_n_n where
  hr := rfl
  hs := rfl
  hl0 := fun i q => by
    unfold DotDims.lhsIdx
    rw [dif_neg (show ¬(0 : Fin S50000x256.rank) ∈ dot_S50000x256_S256x256_S50000x256_1_0_0_1_n_n.lhsBatch by decide),
      dif_pos (show (0 : Fin S50000x256.rank) ∈ dot_S50000x256_S256x256_S50000x256_1_0_0_1_n_n.lhsNonContracting by decide)]
    rfl
  hl1 := fun i q => dot_S50000x256_S256x256_S50000x256_1_0_0_1_n_n.lhsIdx_val_of_single rfl i q
  hr0 := fun i q => dot_S50000x256_S256x256_S50000x256_1_0_0_1_n_n.rhsIdx_val_of_single rfl i q
  hr1 := fun i q => by
    unfold DotDims.rhsIdx
    rw [dif_neg (show ¬(1 : Fin S256x256.rank) ∈ dot_S50000x256_S256x256_S50000x256_1_0_0_1_n_n.rhsBatch by decide),
      dif_pos (show (1 : Fin S256x256.rank) ∈ dot_S50000x256_S256x256_S50000x256_1_0_0_1_n_n.rhsNonContracting by decide)]
    rfl

/-- The [50000, 256] by [256, 128] product contracts the left columns with the right rows. -/
theorem std_256_128 : Sage.Std (a := 50000) (K := 256) (b := 128) dot_S50000x256_S256x128_S50000x128_1_0_0_1_n_n where
  hr := rfl
  hs := rfl
  hl0 := fun i q => by
    unfold DotDims.lhsIdx
    rw [dif_neg (show ¬(0 : Fin S50000x256.rank) ∈ dot_S50000x256_S256x128_S50000x128_1_0_0_1_n_n.lhsBatch by decide),
      dif_pos (show (0 : Fin S50000x256.rank) ∈ dot_S50000x256_S256x128_S50000x128_1_0_0_1_n_n.lhsNonContracting by decide)]
    rfl
  hl1 := fun i q => dot_S50000x256_S256x128_S50000x128_1_0_0_1_n_n.lhsIdx_val_of_single rfl i q
  hr0 := fun i q => dot_S50000x256_S256x128_S50000x128_1_0_0_1_n_n.rhsIdx_val_of_single rfl i q
  hr1 := fun i q => by
    unfold DotDims.rhsIdx
    rw [dif_neg (show ¬(1 : Fin S256x128.rank) ∈ dot_S50000x256_S256x128_S50000x128_1_0_0_1_n_n.rhsBatch by decide),
      dif_pos (show (1 : Fin S256x128.rank) ∈ dot_S50000x256_S256x128_S50000x128_1_0_0_1_n_n.rhsNonContracting by decide)]
    rfl

/-- The [50000, 128] by [128, 2] product contracts the left columns with the right rows. -/
theorem std_128_2 : Sage.Std (a := 50000) (K := 128) (b := 2) dot_S50000x128_S128x2_S50000x2_1_0_0_1_n_n where
  hr := rfl
  hs := rfl
  hl0 := fun i q => by
    unfold DotDims.lhsIdx
    rw [dif_neg (show ¬(0 : Fin S50000x128.rank) ∈ dot_S50000x128_S128x2_S50000x2_1_0_0_1_n_n.lhsBatch by decide),
      dif_pos (show (0 : Fin S50000x128.rank) ∈ dot_S50000x128_S128x2_S50000x2_1_0_0_1_n_n.lhsNonContracting by decide)]
    rfl
  hl1 := fun i q => dot_S50000x128_S128x2_S50000x2_1_0_0_1_n_n.lhsIdx_val_of_single rfl i q
  hr0 := fun i q => dot_S50000x128_S128x2_S50000x2_1_0_0_1_n_n.rhsIdx_val_of_single rfl i q
  hr1 := fun i q => by
    unfold DotDims.rhsIdx
    rw [dif_neg (show ¬(1 : Fin S128x2.rank) ∈ dot_S50000x128_S128x2_S50000x2_1_0_0_1_n_n.rhsBatch by decide),
      dif_pos (show (1 : Fin S128x2.rank) ∈ dot_S50000x128_S128x2_S50000x2_1_0_0_1_n_n.rhsNonContracting by decide)]
    rfl

end Cert.ReferenceIdeal.Hand
-- ==== Proof.RValue.lean ====
/-
  The reference program's result is the network's value.  The reference spells each layer with whole-array host
  operations: the neighbour sums divided by the counts broadcast to the matrix, two matrix products, the bias vector
  broadcast to the matrix, the maximum with zero.  Dividing by a count is multiplying by its reciprocal because no count
  is zero — each is a maximum with one —, so each layer is the entry-by-entry layer at the column of reciprocal counts;
  and the aggregation, the counts and the edge endpoints are the same host operations of the same arguments in both
  programs.
-/
import proofs.«112846_j69286412419426_2_alg».proof.Proof.Gen.ReferenceIdeal.Read
import proofs.«112846_j69286412419426_2_alg».proof.Proof.Spec
import proofs.«112846_j69286412419426_2_alg».proof.Proof.RDims

noncomputable section

namespace Cert.ReferenceIdeal.Hand

open Cert.ReferenceIdeal Cert.ReferenceIdeal.Facts₀ Cert.ReferenceIdeal.Read Idealize.ShloMosaic Idealize.ShloMosaic.ValueIdx

/-- No count is zero: each is a maximum with one. -/
theorem ne_v19 (x1 : (⟨S2x600000, .i32⟩ : BufTy).Contents (Elt Ideal)) (k : S50000.Idx) : val_main_v19 (F := Ideal) x1 k ≠ 0 := by
  unfold val_main_v19
  have e : val_main_v18 (F := Ideal) k = 1 := by
    unfold val_main_v18 val_main_cst_3
    rw [broadcastInDim_apply ![] bcast_S_S50000 (constant (F := Ideal) S_ .f32 0x3F800000#32) k ix0 (fun c => c.elim0),
      constant_apply, Ideal.ofBits_one_f32]
  rw [maximumf_apply, e]
  exact Sage.max_one_ne_zero _

/-- No count is zero: each is a maximum with one. -/
theorem ne_v45 (x1 : (⟨S2x600000, .i32⟩ : BufTy).Contents (Elt Ideal)) (k : S50000.Idx) : val_main_v45 (F := Ideal) x1 k ≠ 0 := by
  unfold val_main_v45
  have e : val_main_v44 (F := Ideal) k = 1 := by
    unfold val_main_v44 val_main_cst_9
    rw [broadcastInDim_apply ![] bcast_S_S50000 (constant (F := Ideal) S_ .f32 0x3F800000#32) k ix0 (fun c => c.elim0),
      constant_apply, Ideal.ofBits_one_f32]
  rw [maximumf_apply, e]
  exact Sage.max_one_ne_zero _

/-- No count is zero: each is a maximum with one. -/
theorem ne_v71 (x1 : (⟨S2x600000, .i32⟩ : BufTy).Contents (Elt Ideal)) (k : S50000.Idx) : val_main_v71 (F := Ideal) x1 k ≠ 0 := by
  unfold val_main_v71
  have e : val_main_v70 (F := Ideal) k = 1 := by
    unfold val_main_v70 val_main_cst_15
    rw [broadcastInDim_apply ![] bcast_S_S50000 (constant (F := Ideal) S_ .f32 0x3F800000#32) k ix0 (fun c => c.elim0),
      constant_apply, Ideal.ofBits_one_f32]
  rw [maximumf_apply, e]
  exact Sage.max_one_ne_zero _

/-- The reference's first layer is the first layer's features. -/
theorem layer1_eq (x0 : (⟨S50000x128, .f32⟩ : BufTy).Contents (Elt Ideal)) (x1 : (⟨S2x600000, .i32⟩ : BufTy).Contents (Elt Ideal)) (x2 : (⟨S128x256, .f32⟩ : BufTy).Contents (Elt Ideal)) (x3 : (⟨S128x256, .f32⟩ : BufTy).Contents (Elt Ideal)) (x4 : (⟨S256, .f32⟩ : BufTy).Contents (Elt Ideal)) :
    val_main_v29 (F := Ideal) x0 x1 x2 x3 x4 = Cert.KernelIdeal.Hand.H1 x0 x1 x2 x3 x4 := by
  unfold val_main_v29 val_main_v28 val_main_v25 val_main_v23 val_main_v24 val_main_v22 val_main_v27 val_main_v26
    val_main_v21 val_main_v20 val_main_call0_v0 val_main_call0_cst
  refine (Sage.host_relu _ _).trans (congrArg Sage.relu ?_)
  refine (Sage.host_layer _ std_128_256 none _ x0 (val_main_v19 (F := Ideal) x1) x2 x3 x4 _ _ _ _ bcast_S_S50000
    Cert.KernelIdeal.Facts₀.shapeCasts_S256_S1x256 (ne_v19 x1)).trans ?_
  rfl

/-- The reference's second layer is the second layer's features. -/
theorem layer2_eq (x0 : (⟨S50000x128, .f32⟩ : BufTy).Contents (Elt Ideal)) (x1 : (⟨S2x600000, .i32⟩ : BufTy).Contents (Elt Ideal)) (x2 : (⟨S128x256, .f32⟩ : BufTy).Contents (Elt Ideal)) (x3 : (⟨S128x256, .f32⟩ : BufTy).Contents (Elt Ideal)) (x4 : (⟨S256, .f32⟩ : BufTy).Contents (Elt Ideal)) (x5 : (⟨S256x256, .f32⟩ : BufTy).Contents (Elt Ideal)) (x6 : (⟨S256x256, .f32⟩ : BufTy).Contents (Elt Ideal)) (x7 : (⟨S256, .f32⟩ : BufTy).Contents (Elt Ideal)) :
    val_main_v55 (F := Ideal) x0 x1 x2 x3 x4 x5 x6 x7 = Cert.KernelIdeal.Hand.H2 x0 x1 x2 x3 x4 x5 x6 x7 := by
  unfold val_main_v55 val_main_v54 val_main_v51 val_main_v49 val_main_v50 val_main_v48 val_main_v53 val_main_v52
    val_main_v47 val_main_v46 val_main_call1_v0 val_main_call1_cst val_main_v39 val_main_v36
  rw [layer1_eq]
  refine (Sage.host_relu _ _).trans (congrArg Sage.relu ?_)
  refine (Sage.host_layer _ std_256_256 none _ (Cert.KernelIdeal.Hand.H1 x0 x1 x2 x3 x4) (val_main_v45 (F := Ideal) x1) x5 x6 x7 _ _ _ _ bcast_S_S50000
    Cert.KernelIdeal.Facts₀.shapeCasts_S256_S1x256 (ne_v45 x1)).trans ?_
  rfl

/-- The reference's result is the network's value. -/
theorem result_eq (x0 : (⟨S50000x128, .f32⟩ : BufTy).Contents (Elt Ideal)) (x1 : (⟨S2x600000, .i32⟩ : BufTy).Contents (Elt Ideal)) (x2 : (⟨S128x256, .f32⟩ : BufTy).Contents (Elt Ideal)) (x3 : (⟨S128x256, .f32⟩ : BufTy).Contents (Elt Ideal)) (x4 : (⟨S256, .f32⟩ : BufTy).Contents (Elt Ideal)) (x5 : (⟨S256x256, .f32⟩ : BufTy).Contents (Elt Ideal)) (x6 : (⟨S256x256, .f32⟩ : BufTy).Contents (Elt Ideal)) (x7 : (⟨S256, .f32⟩ : BufTy).Contents (Elt Ideal)) (x8 : (⟨S256x128, .f32⟩ : BufTy).Contents (Elt Ideal)) (x9 : (⟨S256x128, .f32⟩ : BufTy).Contents (Elt Ideal)) (x10 : (⟨S128, .f32⟩ : BufTy).Contents (Elt Ideal)) (x11 : (⟨S128x2, .f32⟩ : BufTy).Contents (Elt Ideal)) (x12 : (⟨S2, .f32⟩ : BufTy).Contents (Elt Ideal)) :
    val_main_v84 (F := Ideal) x0 x1 x2 x3 x4 x5 x6 x7 x8 x9 x10 x11 x12 = Cert.KernelIdeal.Hand.OUT x0 x1 x2 x3 x4 x5 x6 x7 x8 x9 x10 x11 x12 := by
  unfold val_main_v84 val_main_v83 val_main_v82 val_main_v81 val_main_v80 val_main_v77 val_main_v75 val_main_v76 val_main_v74
    val_main_v79 val_main_v78 val_main_v73 val_main_v72 val_main_v65 val_main_v62
  rw [layer2_eq]
  refine (Sage.host_head _ std_128_2 none _ x11 x12 _ _ Cert.KernelIdeal.Facts₀.shapeCasts_S2_S1x2).trans ?_
  refine congrArg (fun h => Sage.head h x11 (Cert.KernelIdeal.Hand.row2 x12)) ?_
  refine (Sage.host_layer _ std_256_128 none _ (Cert.KernelIdeal.Hand.H2 x0 x1 x2 x3 x4 x5 x6 x7) (val_main_v71 (F := Ideal) x1) x8 x9 x10 _ _ _ _ bcast_S_S50000
    Cert.KernelIdeal.Facts₀.shapeCasts_S128_S1x128 (ne_v71 x1)).trans ?_
  rfl

end Cert.ReferenceIdeal.Hand

end
-- ==== Proof.lean ====
/-
  A three-layer mean-aggregating graph network with a linear read-out, on 50000 nodes and 600000 edges, computed in
  three regions of ten row blocks each against whole-array host operations.

  One layer sends node features X, with A their sums over incoming edges and c the number of incoming edges of each
  node (at least one), to  (A / c) · Wl + X · Wr + b;  the first two layers are clamped below at zero and the third is
  followed by the read-out  H · Wout + bout.  The program computes 1 / c once, as a column, and each region multiplies
  its block of A by it; the reference divides A by c.  On the extended reals a · (1 / d) = a / d whenever d ≠ 0, and
  every count is a maximum with one, so the two agree with no finiteness asked of any input.  A row of a layer depends
  only on that row of A, X and the column, so the ten row blocks of a region are the ten row blocks of the layer of the
  whole arrays; and the gathers and scatter-adds that build A and c are the same host operations of the same values in
  both programs.  The precondition is never opened.

  The frames of the two printed programs are the generated ones; the reference's frame is its generated run with the
  result dropped; nothing was rewritten by the ideal pass, so there is nothing to preserve.
-/
import proofs.«112846_j69286412419426_2_alg».proof.Defs
import proofs.«112846_j69286412419426_2_alg».proof.Proof.Gen.Kernel
import proofs.«112846_j69286412419426_2_alg».proof.Proof.Gen.Kernel.Skeleton
import proofs.«112846_j69286412419426_2_alg».proof.Proof.PKernelLaunch
import proofs.«112846_j69286412419426_2_alg».proof.Proof.Gen.Kernel.Points
import proofs.«112846_j69286412419426_2_alg».proof.Proof.PKernelFrame
import proofs.«112846_j69286412419426_2_alg».proof.Proof.Gen.KernelIdeal
import proofs.«112846_j69286412419426_2_alg».proof.Proof.Gen.KernelIdeal.Skeleton
import proofs.«112846_j69286412419426_2_alg».proof.Proof.PKernelIdealLaunch
import proofs.«112846_j69286412419426_2_alg».proof.Proof.Gen.KernelIdeal.Points
import proofs.«112846_j69286412419426_2_alg».proof.Proof.PKernelIdealFrame
import proofs.«112846_j69286412419426_2_alg».proof.Proof.Gen.ReferenceIdeal
import proofs.«112846_j69286412419426_2_alg».proof.Proof.Gen.Pre_finite_inputs
import proofs.«112846_j69286412419426_2_alg».proof.Proof.Gen.ReferenceIdeal.Run
import proofs.«112846_j69286412419426_2_alg».proof.Proof.Gen.ReferenceIdeal.Read
import proofs.«112846_j69286412419426_2_alg».proof.Proof.KRun
import proofs.«112846_j69286412419426_2_alg».proof.Proof.KValue
import proofs.«112846_j69286412419426_2_alg».proof.Proof.RValue
import Idealize.ShloMosaic.Adequacy
import Idealize.ShloMosaic.Init

noncomputable section

namespace Cert.Proof

open Idealize.ShloMosaic Idealize.SL.Sem

/-- The word-level program runs and leaves its arguments as launched. -/
theorem frame_kernel : Cert.frame_Kernel := fun m ρ _ => Cert.Kernel.Gen.frame m ρ

/-- The idealized program runs and leaves its arguments as launched. -/
theorem frame_kernelIdeal : Cert.frame_KernelIdeal := fun m ρ _ => Cert.KernelIdeal.Gen.frame m ρ

/-- The reference runs and leaves its arguments as launched: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments both programs end with the network's value of those arguments in their
    result arrays: the program's three regions leave it block by block, the reference computes it with whole-array
    operations. -/
theorem algebraic : Cert.algebraic_KernelIdeal_ReferenceIdeal := by
  intro m ρ m' ρ' _ hagree
  refine ⟨fun c => Cert.KernelIdeal.Hand.OUT (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.Hand.W6_v49 m ρ c), (h c).2⟩) (Cert.KernelIdeal.Hand.run_named m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10, e11, e12⟩ := hagree c
    rw [Cert.ReferenceIdeal.Read.val_main_v84_eq, Cert.ReferenceIdeal.Hand.result_eq,
      e0, e1, e2, e3, e4, e5, e6, e7, e8, e9, e10, e11, e12]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
